-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S64x2 1) : IVec S_ 1 :=
  let main_c_5 : IVec S_ 1 := constantI S_ 1 1#1
  let main_v17 : IVec S_ 1 := (fun x v => Host.reduce IntOp.andi x v reducesTo_S64x2_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x128 .f32) (main_arg1 : FVec F S128x64 .f32) (main_arg2 : FVec F S64 .f32) (main_arg3 : FVec F S64x2 .f32) (main_arg4 : FVec F S2 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x2 .f32 := Host.absf main_arg3
  let main_cst_4 : FVec F S_ .f32 := constant S_ .f32 0x7F800000#32
  let main_v15 : FVec F S64x2 .f32 := broadcastInDim S64x2 ![] bcast_S_S64x2 main_cst_4
  let main_v16 : IVec S64x2 1 := cmpf .olt main_v14 main_v15
  fn_part1 (F := F) main_arg4 main_v13 main_v16
-- ==== Kernel.lean ====
abbrev S100000x128 : Shape := ⟨2, ![100000, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x64 : Shape := ⟨2, ![1, 64]⟩
abbrev S1x2 : Shape := ⟨2, ![1, 2]⟩
abbrev S100000x64 : Shape := ⟨2, ![100000, 64]⟩
abbrev S2000x128 : Shape := ⟨2, ![2000, 128]⟩
abbrev S2000x1 : Shape := ⟨2, ![2000, 1]⟩
abbrev S2000x64 : Shape := ⟨2, ![2000, 64]⟩
abbrev S1600000x64 : Shape := ⟨2, ![1600000, 64]⟩
abbrev S100000x2 : Shape := ⟨2, ![100000, 2]⟩
abbrev S2000x2 : Shape := ⟨2, ![2000, 2]⟩
abbrev S1600000x2 : Shape := ⟨2, ![1600000, 2]⟩

abbrev nBuf : Space → Nat
  | .hbm => 79
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x2, .f32⟩
  | .hbm, ⟨4, _⟩ => ⟨S2, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000x1, .f32⟩
  | .hbm, ⟨47, _⟩ => ⟨S1x64, .f32⟩
  | .hbm, ⟨48, _⟩ => ⟨S1x2, .f32⟩
  | .hbm, ⟨49, _⟩ => ⟨S100000x64, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S100000x64, .f32⟩
  | .hbm, ⟨64, _⟩ => ⟨S100000x2, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x2, .f32⟩
  | .hbm, ⟨74, _⟩ => ⟨S_, .f32⟩
  | .hbm, ⟨75, _⟩ => ⟨S100000x2, .f32⟩
  | .hbm, ⟨76, _⟩ => ⟨S1600000x1, .i32⟩
  | .hbm, ⟨77, _⟩ => ⟨S100000x2, .f32⟩
  | .hbm, ⟨78, _⟩ => ⟨S100000x2, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S1x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x1, .f32⟩
  | .local _ .vmem, ⟨17, _⟩ => ⟨S2000x1, .f32⟩
  | .local _ .vmem, ⟨18, _⟩ => ⟨S64x2, .f32⟩
  | .local _ .vmem, ⟨19, _⟩ => ⟨S2000x2, .f32⟩
  | .local _ .vmem, ⟨20, _⟩ => ⟨S2000x2, .f32⟩
  | .local _ .vmem, ⟨21, _⟩ => ⟨S2000x2, .f32⟩
  | .local _ .vmem, ⟨22, _⟩ => ⟨S2000x2, .f32⟩
  | .local _ .vmem, ⟨23, _⟩ => ⟨S2000x1, .f32⟩
  | .local _ .vmem, ⟨24, _⟩ => ⟨S2000x1, .f32⟩
  | .local _ .vmem, ⟨25, _⟩ => ⟨S1x2, .f32⟩
  | .local _ .vmem, ⟨26, _⟩ => ⟨S2000x2, .f32⟩
  | .local _ .vmem, ⟨27, _⟩ => ⟨S2000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_cst_6 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_cst_7 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_8 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_9 : Ref sig .tc := ⟨.hbm, 50, rfl⟩
abbrev main_v28 : Ref sig .tc := ⟨.hbm, 51, rfl⟩
abbrev main_v29 : Ref sig .tc := ⟨.hbm, 52, rfl⟩
abbrev main_c_10 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_11 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_12 : Ref sig .tc := ⟨.hbm, 65, rfl⟩
abbrev main_v40 : Ref sig .tc := ⟨.hbm, 66, rfl⟩
abbrev main_v41 : Ref sig .tc := ⟨.hbm, 67, rfl⟩
abbrev main_c_13 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_14 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x2 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S64_S1x64 : S64.ShapeCasts S1x64
  shapeCasts_S2_S1x2 : S2.ShapeCasts S1x2
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S_S100000x64 : S_.BroadcastsInDim S100000x64 (![] : Fin 0 → Fin S100000x64.rank)
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  shapeCasts_S2000x64_S2000x64 : S2000x64.ShapeCasts S2000x64
  inb_S64x2_S64x2_0_0 : ∀ a, (![0, 0] : Fin 2 → Nat) a + S64x2.size a ≤ S64x2.size a
  h_S64x2 : 0 < S64x2.numel
  inb_S2000x2_S2000x2_0_0 : ∀ a, (![0, 0] : Fin 2 → Nat) a + S2000x2.size a ≤ S2000x2.size a
  h_S2000x2 : 0 < S2000x2.numel
  bcast_S_S100000x2 : S_.BroadcastsInDim S100000x2 (![] : Fin 0 → Fin S100000x2.rank)
  broadcasts_S2000x1_S2000x2 : S2000x1.Broadcasts S2000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  shapeCasts_S2000x2_S2000x2 : S2000x2.ShapeCasts S2000x2
  scatter_S100000_S1600000x1_S1600000_n_0_0_1_wf : ScatterDims.WF S100000 S1600000x1 S1600000 [] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x2_S2000x2_1_0_0_1_n_n_wf : DotDims.WF S2000x64 S64x2 S2000x2 [1] [0] [0] [1] [] []
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x2.size a ≤ S64x2.size a
  hwx2_2 : ∀ i : grid2.Coords, EltTy.bits .f32 = 32 ∨ (Rect.block (s := S64x2) S64x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x2.size a ≤ S100000x2.size a
  hwx2_3 : ∀ i : grid2.Coords, EltTy.bits .f32 = 32 ∨ (Rect.block (s := S100000x2) S2000x2.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x2.size a ≤ S100000x2.size a
  hwx3_0 : ∀ i : grid3.Coords, EltTy.bits .f32 = 32 ∨ (Rect.block (s := S100000x2) S2000x2.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2.size a ≤ S1x2.size a
  hwx3_2 : ∀ i : grid3.Coords, EltTy.bits .f32 = 32 ∨ (Rect.block (s := S1x2) S1x2.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x2.size a ≤ S100000x2.size a
  hwx3_3 : ∀ i : grid3.Coords, EltTy.bits .f32 = 32 ∨ (Rect.block (s := S100000x2) S2000x2.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x2_S2000x2_1_0_0_1_n_n : DotDims S2000x64 S64x2 S2000x2 where
  lhsContracting := [1]
  rhsContracting := [0]
  lhsNonContracting := [0]
  rhsNonContracting := [1]
  lhsBatch := []
  rhsBatch := []
  wf := dot_S2000x64_S64x2_S2000x2_1_0_0_1_n_n_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v37) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v38) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S64x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S2000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v49) S2000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v26) S1x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S2000x2.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩
abbrev S100000x2 : Shape := ⟨2, ![100000, 2]⟩
abbrev S1600000x2 : Shape := ⟨2, ![1600000, 2]⟩
abbrev S1x2 : Shape := ⟨2, ![1, 2]⟩

abbrev nBuf : Space → Nat
  | .hbm => 94
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x2, .f32⟩
  | .hbm, ⟨4, _⟩ => ⟨S2, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S100000x1, .f32⟩
  | .hbm, ⟨63, _⟩ => ⟨S100000x64, .f32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x1, .f32⟩
  | .hbm, ⟨72, _⟩ => ⟨S100000x64, .f32⟩
  | .hbm, ⟨73, _⟩ => ⟨S100000x64, .f32⟩
  | .hbm, ⟨74, _⟩ => ⟨S100000x2, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000x2, .f32⟩
  | .hbm, ⟨84, _⟩ => ⟨S_, .f32⟩
  | .hbm, ⟨85, _⟩ => ⟨S100000x2, .f32⟩
  | .hbm, ⟨86, _⟩ => ⟨S1600000x1, .i32⟩
  | .hbm, ⟨87, _⟩ => ⟨S100000x2, .f32⟩
  | .hbm, ⟨88, _⟩ => ⟨S100000x1, .f32⟩
  | .hbm, ⟨89, _⟩ => ⟨S100000x2, .f32⟩
  | .hbm, ⟨90, _⟩ => ⟨S100000x2, .f32⟩
  | .hbm, ⟨91, _⟩ => ⟨S1x2, .f32⟩
  | .hbm, ⟨92, _⟩ => ⟨S100000x2, .f32⟩
  | .hbm, ⟨93, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_c_4 : Ref sig .tc := ⟨.hbm, 26, rfl⟩
abbrev main_v11 : Ref sig .tc := ⟨.hbm, 27, rfl⟩
abbrev main_v12 : Ref sig .tc := ⟨.hbm, 28, rfl⟩
abbrev main_c_5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_6 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_cst_7 : Ref sig .tc := ⟨.hbm, 39, rfl⟩
abbrev main_v19 : Ref sig .tc := ⟨.hbm, 40, rfl⟩
abbrev main_v20 : Ref sig .tc := ⟨.hbm, 41, rfl⟩
abbrev main_cst_8 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_9 : Ref sig .tc := ⟨.hbm, 49, rfl⟩
abbrev main_v27 : Ref sig .tc := ⟨.hbm, 50, rfl⟩
abbrev main_v28 : Ref sig .tc := ⟨.hbm, 51, rfl⟩
abbrev main_c_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_11 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_call2_cst : Ref sig .tc := ⟨.hbm, 68, rfl⟩
abbrev main_call2_v0 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_12 : Ref sig .tc := ⟨.hbm, 75, rfl⟩
abbrev main_v48 : Ref sig .tc := ⟨.hbm, 76, rfl⟩
abbrev main_v49 : Ref sig .tc := ⟨.hbm, 77, rfl⟩
abbrev main_c_13 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_14 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x2 : S_.BroadcastsInDim S100000x2 (![] : Fin 0 → Fin S100000x2.rank)
  bcast_S100000x1_S100000x2_0_1 : S100000x1.BroadcastsInDim S100000x2 (![0, 1] : Fin 2 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x2_S100000x2_1_0_0_1_n_n_wf : DotDims.WF S100000x64 S64x2 S100000x2 [1] [0] [0] [1] [] []
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf

class Facts : Prop extends Facts₀ where

variable [Facts]
-- ==== Proof.KRun.lean ====
/-
  The idealized kernel's run with its result named: every weakly fair execution of the four regions and the host
  operations between them terminates, nothing faulting, with the result array at the contents the last region's
  write-backs leave (the fold of the buffer contents through the program, read at the result's buffer) and the
  argument arrays as launched.
-/
import proofs.«174959_j31851477467287_1_alg».proof.Proof.Gen.KernelIdeal.Frame

set_option maxRecDepth 16384

noncomputable section

namespace Cert.KernelIdeal.HandRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the final state's unscoped buffers are the last boundary's contents; read at the result's buffer and at
    each argument's (which no operation and no region writes). -/
theorem run : θ_run defs (onTc (τ := τ) (main (F := F))) ⟨m, fun _ => 0, ρ⟩ (fun r => ∀ c : Dev nD,
      r.2.mem ((c.tc : Thread nD τ).loc main_v50) = W11 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v50 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c)⟩)

end Cert.KernelIdeal.HandRun

end
-- ==== Proof.Spec.lean ====
/-
  The two dense stages of a graph-convolution layer, each as one function of whole arrays, index by index, over the
  extended reals.

  * `scaleProject x n w`: every row `p` of `x` is scaled by that row's entry of the column `n` and then multiplied into
    `w`: the entry at `(p, e)` is `∑ₖ (x (p, k) · n (p, 0)) · w (k, e)`.
  * `normBias a n b`: every row `p` of `a` is scaled by that row's entry of the column `n`, and the row `b` is added:
    the entry at `(p, e)` is `a (p, e) · n (p, 0) + b (0, e)`.
  * `normBiasRelu a n b` is the same followed by the maximum with zero.

  A layer is `normBias…` of the edge aggregation of `scaleProject` of the node features; the kernel computes each stage
  tile by tile over row blocks, the reference once over the whole arrays.
-/
import Idealize.ShloMosaic.Lib.ValueIdx
import Idealize.ShloMosaic.PureOps.Ideal

noncomputable section

namespace Cert.Spec

open Idealize.ShloMosaic Idealize.ShloMosaic.ValueIdx

/-- Rows scaled by a column, then projected: `∑ₖ (x (p, k) · n (p, 0)) · w (k, e)` at `(p, e)`. -/
def scaleProject {M K N : ℕ} (x : FVec Ideal ⟨2, ![M, K]⟩ .f32) (n : FVec Ideal ⟨2, ![M, 1]⟩ .f32)
    (w : FVec Ideal ⟨2, ![K, N]⟩ .f32) : FVec Ideal ⟨2, ![M, N]⟩ .f32 :=
  fun i => ∑ k : Fin K, (x (ix2 (i 0) k) * n (ix2 (i 0) (0 : Fin 1))) * w (ix2 k (i 1))

/-- Rows scaled by a column, a row added: `a (p, e) · n (p, 0) + b (0, e)` at `(p, e)`. -/
def normBias {M N : ℕ} (a : FVec Ideal ⟨2, ![M, N]⟩ .f32) (n : FVec Ideal ⟨2, ![M, 1]⟩ .f32)
    (b : FVec Ideal ⟨2, ![1, N]⟩ .f32) : FVec Ideal ⟨2, ![M, N]⟩ .f32 :=
  fun i => a (ix2 (i 0) (i 1)) * n (ix2 (i 0) (0 : Fin 1)) + b (ix2 (0 : Fin 1) (i 1))

/-- The same followed by the maximum with the zero word's value. -/
def normBiasRelu {M N : ℕ} (a : FVec Ideal ⟨2, ![M, N]⟩ .f32) (n : FVec Ideal ⟨2, ![M, 1]⟩ .f32)
    (b : FVec Ideal ⟨2, ![1, N]⟩ .f32) : FVec Ideal ⟨2, ![M, N]⟩ .f32 :=
  fun i => max (a (ix2 (i 0) (i 1)) * n (ix2 (i 0) (0 : Fin 1)) + b (ix2 (0 : Fin 1) (i 1))) (Ideal.ofBits .f32 0x00000000#32)

end Cert.Spec

end
-- ==== Proof.Walk.lean ====
/-
  Which buffers the program leaves alone: an array that no host operation of a stretch writes keeps its contents across
  the stretch, and an array that a region only reads (or does not touch) keeps its contents across the region. Each
  lemma walks one array back from a later boundary of the program to an earlier one.
-/
import proofs.«174959_j31851477467287_1_alg».proof.Proof.Gen.KernelIdeal.Frame

set_option maxRecDepth 16384

noncomputable section

namespace Cert.KernelIdeal.HandWalk

open Cert.KernelIdeal Cert.KernelIdeal.Gen
open Idealize.ShloMosaic Idealize.ShloMosaic.TcCoe Idealize.SL.Sem
open Idealize.ShloMosaic.Pipeline (Dat)

/-- A buffer that none of a stretch's operations writes keeps its contents across the stretch. -/
macro "host_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

variable {F : FTy → Type} [FloatOps F]
variable (m : (ℓ : Loc nD τ sig) → Buf (Elt F) ℓ) (ρ : Dev nD → PrngReg)

theorem keep_main_arg0_0_5 (c : Dev nD) : W5 m ρ c (Proc.devRef .tc main_arg0) = W0 m ρ c (Proc.devRef .tc main_arg0) :=
  calc W5 m ρ c (Proc.devRef .tc main_arg0)
    _ = W4 m ρ c (Proc.devRef .tc main_arg0) := by host_keeps hostOps0_4
    _ = W3 m ρ c (Proc.devRef .tc main_arg0) := by host_keeps hostOps0_3
    _ = W2 m ρ c (Proc.devRef .tc main_arg0) := by host_keeps hostOps0_2
    _ = W1 m ρ c (Proc.devRef .tc main_arg0) := by host_keeps hostOps0_1
    _ = W0 m ρ c (Proc.devRef .tc main_arg0) := by host_keeps hostOps0

theorem keep_main_arg1_0_5 (c : Dev nD) : W5 m ρ c (Proc.devRef .tc main_arg1) = W0 m ρ c (Proc.devRef .tc main_arg1) :=
  calc W5 m ρ c (Proc.devRef .tc main_arg1)
    _ = W4 m ρ c (Proc.devRef .tc main_arg1) := by host_keeps hostOps0_4
    _ = W3 m ρ c (Proc.devRef .tc main_arg1) := by host_keeps hostOps0_3
    _ = W2 m ρ c (Proc.devRef .tc main_arg1) := by host_keeps hostOps0_2
    _ = W1 m ρ c (Proc.devRef .tc main_arg1) := by host_keeps hostOps0_1
    _ = W0 m ρ c (Proc.devRef .tc main_arg1) := by host_keeps hostOps0

theorem keep_main_arg5_0_6 (c : Dev nD) : W6 m ρ c (Proc.devRef .tc main_arg5) = W0 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := by host_keeps hostOps0_4
    _ = W3 m ρ c (Proc.devRef .tc main_arg5) := by host_keeps hostOps0_3
    _ = W2 m ρ c (Proc.devRef .tc main_arg5) := by host_keeps hostOps0_2
    _ = W1 m ρ c (Proc.devRef .tc main_arg5) := by host_keeps hostOps0_1
    _ = W0 m ρ c (Proc.devRef .tc main_arg5) := by host_keeps hostOps0

theorem keep_main_arg6_0_6 (c : Dev nD) : W6 m ρ c (Proc.devRef .tc main_arg6) = W0 m ρ c (Proc.devRef .tc main_arg6) :=
  calc W6 m ρ c (Proc.devRef .tc main_arg6)
    _ = W5 m ρ c (Proc.devRef .tc main_arg6) := W6_of_ne m ρ c main_arg6 (by decide)
    _ = W4 m ρ c (Proc.devRef .tc main_arg6) := by host_keeps hostOps0_4
    _ = W3 m ρ c (Proc.devRef .tc main_arg6) := by host_keeps hostOps0_3
    _ = W2 m ρ c (Proc.devRef .tc main_arg6) := by host_keeps hostOps0_2
    _ = W1 m ρ c (Proc.devRef .tc main_arg6) := by host_keeps hostOps0_1
    _ = W0 m ρ c (Proc.devRef .tc main_arg6) := by host_keeps hostOps0

theorem keep_main_arg5_6_9 (c : Dev nD) : W9 m ρ c (Proc.devRef .tc main_arg5) = W6 m ρ c (Proc.devRef .tc main_arg5) :=
  calc W9 m ρ c (Proc.devRef .tc main_arg5)
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := by host_keeps hostOps1

theorem keep_main_arg6_6_9 (c : Dev nD) : W9 m ρ c (Proc.devRef .tc main_arg6) = W6 m ρ c (Proc.devRef .tc main_arg6) :=
  calc W9 m ρ c (Proc.devRef .tc main_arg6)
    _ = W8 m ρ c (Proc.devRef .tc main_arg6) := W9_of_ne m ρ c main_arg6 (by decide)
    _ = W7 m ρ c (Proc.devRef .tc main_arg6) := W8_of_ne m ρ c main_arg6 (by decide)
    _ = W6 m ρ c (Proc.devRef .tc main_arg6) := by host_keeps hostOps1

theorem keep_main_arg3_0_8 (c : Dev nD) : W8 m ρ c (Proc.devRef .tc main_arg3) = W0 m ρ c (Proc.devRef .tc main_arg3) :=
  calc W8 m ρ c (Proc.devRef .tc main_arg3)
    _ = W7 m ρ c (Proc.devRef .tc main_arg3) := W8_of_ne m ρ c main_arg3 (by decide)
    _ = W6 m ρ c (Proc.devRef .tc main_arg3) := by host_keeps hostOps1
    _ = W5 m ρ c (Proc.devRef .tc main_arg3) := W6_of_ne m ρ c main_arg3 (by decide)
    _ = W4 m ρ c (Proc.devRef .tc main_arg3) := by host_keeps hostOps0_4
    _ = W3 m ρ c (Proc.devRef .tc main_arg3) := by host_keeps hostOps0_3
    _ = W2 m ρ c (Proc.devRef .tc main_arg3) := by host_keeps hostOps0_2
    _ = W1 m ρ c (Proc.devRef .tc main_arg3) := by host_keeps hostOps0_1
    _ = W0 m ρ c (Proc.devRef .tc main_arg3) := by host_keeps hostOps0

theorem keep_main_v21_5_8 (c : Dev nD) : W8 m ρ c (Proc.devRef .tc main_v21) = W5 m ρ c (Proc.devRef .tc main_v21) :=
  calc W8 m ρ c (Proc.devRef .tc main_v21)
    _ = W7 m ρ c (Proc.devRef .tc main_v21) := W8_of_ne m ρ c main_v21 (by decide)
    _ = W6 m ρ c (Proc.devRef .tc main_v21) := by host_keeps hostOps1
    _ = W5 m ρ c (Proc.devRef .tc main_v21) := (W6_arr m ρ c 1).trans (((dat0 (V5 m ρ) c).arrAt_in 1 rfl _).trans (A_eq0 (V5 m ρ) c 1))

theorem keep_main_v24_5_7 (c : Dev nD) : W7 m ρ c (Proc.devRef .tc main_v24) = W5 m ρ c (Proc.devRef .tc main_v24) :=
  calc W7 m ρ c (Proc.devRef .tc main_v24)
    _ = W6 m ρ c (Proc.devRef .tc main_v24) := by host_keeps hostOps1
    _ = W5 m ρ c (Proc.devRef .tc main_v24) := W6_of_ne m ρ c main_v24 (by decide)

theorem keep_main_v24_7_10 (c : Dev nD) : W10 m ρ c (Proc.devRef .tc main_v24) = W7 m ρ c (Proc.devRef .tc main_v24) :=
  calc W10 m ρ c (Proc.devRef .tc main_v24)
    _ = W9 m ρ c (Proc.devRef .tc main_v24) := by host_keeps hostOps3
    _ = W8 m ρ c (Proc.devRef .tc main_v24) := W9_of_ne m ρ c main_v24 (by decide)
    _ = W7 m ρ c (Proc.devRef .tc main_v24) := (W8_arr m ρ c 1).trans (((dat1 (V7 m ρ) c).arrAt_in 1 rfl _).trans (A_eq1 (V7 m ρ) c 1))

theorem keep_main_v25_5_7 (c : Dev nD) : W7 m ρ c (Proc.devRef .tc main_v25) = W5 m ρ c (Proc.devRef .tc main_v25) :=
  calc W7 m ρ c (Proc.devRef .tc main_v25)
    _ = W6 m ρ c (Proc.devRef .tc main_v25) := by host_keeps hostOps1
    _ = W5 m ρ c (Proc.devRef .tc main_v25) := W6_of_ne m ρ c main_v25 (by decide)

theorem keep_main_v26_5_10 (c : Dev nD) : W10 m ρ c (Proc.devRef .tc main_v26) = W5 m ρ c (Proc.devRef .tc main_v26) :=
  calc W10 m ρ c (Proc.devRef .tc main_v26)
    _ = W9 m ρ c (Proc.devRef .tc main_v26) := by host_keeps hostOps3
    _ = W8 m ρ c (Proc.devRef .tc main_v26) := W9_of_ne m ρ c main_v26 (by decide)
    _ = W7 m ρ c (Proc.devRef .tc main_v26) := W8_of_ne m ρ c main_v26 (by decide)
    _ = W6 m ρ c (Proc.devRef .tc main_v26) := by host_keeps hostOps1
    _ = W5 m ρ c (Proc.devRef .tc main_v26) := W6_of_ne m ρ c main_v26 (by decide)

theorem keep_main_v17_2_4 (c : Dev nD) : W4 m ρ c (Proc.devRef .tc main_v17) = W2 m ρ c (Proc.devRef .tc main_v17) :=
  calc W4 m ρ c (Proc.devRef .tc main_v17)
    _ = W3 m ρ c (Proc.devRef .tc main_v17) := by host_keeps hostOps0_3
    _ = W2 m ρ c (Proc.devRef .tc main_v17) := by host_keeps hostOps0_2

theorem keep_main_v16_1_3 (c : Dev nD) : W3 m ρ c (Proc.devRef .tc main_v16) = W1 m ρ c (Proc.devRef .tc main_v16) :=
  calc W3 m ρ c (Proc.devRef .tc main_v16)
    _ = W2 m ρ c (Proc.devRef .tc main_v16) := by host_keeps hostOps0_2
    _ = W1 m ρ c (Proc.devRef .tc main_v16) := by host_keeps hostOps0_1

theorem keep_main_arg2_0_4 (c : Dev nD) : W4 m ρ c (Proc.devRef .tc main_arg2) = W0 m ρ c (Proc.devRef .tc main_arg2) :=
  calc W4 m ρ c (Proc.devRef .tc main_arg2)
    _ = W3 m ρ c (Proc.devRef .tc main_arg2) := by host_keeps hostOps0_3
    _ = W2 m ρ c (Proc.devRef .tc main_arg2) := by host_keeps hostOps0_2
    _ = W1 m ρ c (Proc.devRef .tc main_arg2) := by host_keeps hostOps0_1
    _ = W0 m ρ c (Proc.devRef .tc main_arg2) := by host_keeps hostOps0

theorem keep_main_arg4_0_4 (c : Dev nD) : W4 m ρ c (Proc.devRef .tc main_arg4) = W0 m ρ c (Proc.devRef .tc main_arg4) :=
  calc W4 m ρ c (Proc.devRef .tc main_arg4)
    _ = W3 m ρ c (Proc.devRef .tc main_arg4) := by host_keeps hostOps0_3
    _ = W2 m ρ c (Proc.devRef .tc main_arg4) := by host_keeps hostOps0_2
    _ = W1 m ρ c (Proc.devRef .tc main_arg4) := by host_keeps hostOps0_1
    _ = W0 m ρ c (Proc.devRef .tc main_arg4) := by host_keeps hostOps0

end Cert.KernelIdeal.HandWalk

end
-- ==== Proof.LibColumn.lean ====
/-
  Two layout operations read at an index, for a sum kept as a column: a vector of `a` entries cast to an
  `a × 1` column reads, at (i, 0), the vector at `i`; and an `a × 1` column broadcast to `a × b` reads, at (p, c), the
  column's entry in row `p`, whatever the lane `c`. Both are stated over literal rank-2 indices built from their
  coordinates, so that they rewrite under a payload's other operations.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Entry.lean ====
/-
  The host operations of the idealized kernel, stretch by stretch, against the reference's.

  Before the first region the host counts the degrees (a scatter-add of ones over the edges), clamps the counts from
  below by one, raises them to the power -1/2, and lays the norms out as columns and the biases as rows. Between the
  regions it aggregates: it gathers the projected rows by source node and scatter-adds them by destination node. These
  are the reference's own operations on the same operands, so each stretch's result is the reference's stage as a whole
  array. Two layouts differ: the kernel reshapes the norm vector to a column where the reference broadcasts it, and both
  read the vector at the row; likewise the bias vector as a row, read at the lane.
-/
import proofs.«174959_j31851477467287_1_alg».proof.Proof.Gen.KernelIdeal.Frame
import proofs.«174959_j31851477467287_1_alg».proof.Proof.Gen.ReferenceIdeal.Read
import proofs.«174959_j31851477467287_1_alg».proof.Proof.LibColumn
import Idealize.ShloMosaic.Lib.StableHlo.Run
import Idealize.ShloMosaic.Lib.ValueLayout

set_option maxRecDepth 16384

noncomputable section

namespace Cert.HostStretches

open Cert.KernelIdeal Cert.KernelIdeal.Gen
open Idealize.ShloMosaic Idealize.ShloMosaic.TcCoe Idealize.SL.Sem Idealize.ShloMosaic.ValueIdx Idealize.ShloMosaic.StableHlo
open Cert.ReferenceIdeal.Read (val_main_v8 val_main_v9 val_main_v17 val_main_v18 val_main_v20 val_main_v22 val_main_v23 val_main_v26 val_main_v36
  val_main_v37 val_main_v40 val_main_v47 val_main_v57 val_main_v61 val_main_cst_2 val_main_cst_6 val_main_v23_apply val_main_v37_apply
  val_main_v40_apply val_main_v61_apply idx_main_v23 idx_main_v37 idx_main_v40 idx_main_v61)

/-! ## The two programs' dimension records are the same records -/

theorem scatter1_eq : (scatter_S100000_S1600000x1_S1600000_n_0_0_1 : ScatterDims S100000 S1600000x1 S1600000)
    = Cert.ReferenceIdeal.scatter_S100000_S1600000x1_S1600000_n_0_0_1 := rfl
theorem scatter64_eq : (scatter_S100000x64_S1600000x1_S1600000x64_1_0_0_1 : ScatterDims S100000x64 S1600000x1 S1600000x64)
    = Cert.ReferenceIdeal.scatter_S100000x64_S1600000x1_S1600000x64_1_0_0_1 := rfl
theorem scatter2_eq : (scatter_S100000x2_S1600000x1_S1600000x2_1_0_0_1 : ScatterDims S100000x2 S1600000x1 S1600000x2)
    = Cert.ReferenceIdeal.scatter_S100000x2_S1600000x1_S1600000x2_1_0_0_1 := rfl
theorem gather64_eq : (gather_S100000x64_S1600000x1_S1600000x64_1_0_n_n_0_1_164 : GatherDims S100000x64 S1600000x1 S1600000x64)
    = Cert.ReferenceIdeal.gather_S100000x64_S1600000x1_S1600000x64_1_0_n_n_0_1_164 := rfl
theorem gather2_eq : (gather_S100000x2_S1600000x1_S1600000x2_1_0_n_n_0_1_12 : GatherDims S100000x2 S1600000x1 S1600000x2)
    = Cert.ReferenceIdeal.gather_S100000x2_S1600000x1_S1600000x2_1_0_n_n_0_1_12 := rfl

/-! ## A value moved into or out of a buffer of its own type is the value -/

theorem toBuf_main_v17 (e h2 h3) (v : (⟨S100000, .f32⟩ : BufTy).Contents (Elt Ideal)) :
    (TRef.of (sig := sig) (T := ⟨S100000, .f32⟩) main_v17 e h2 h3).toBuf v = v := cast_eq _ v
theorem toBuf_main_call0_v1 (e h2 h3) (v : (⟨S100000, .f32⟩ : BufTy).Contents (Elt Ideal)) :
    (TRef.of (sig := sig) (T := ⟨S100000, .f32⟩) main_call0_v1 e h2 h3).toBuf v = v := cast_eq _ v
theorem ofBuf_main_call0_v1 (e h2 h3) (v : (main_call0_v1.ty).Contents (Elt Ideal)) :
    (TRef.of (sig := sig) (T := ⟨S100000, .f32⟩) main_call0_v1 e h2 h3).ofBuf v = v := cast_eq _ v
theorem toBuf_main_call0_v0 (e h2 h3) (v : (⟨S_, .f32⟩ : BufTy).Contents (Elt Ideal)) :
    (TRef.of (sig := sig) (T := ⟨S_, .f32⟩) main_call0_v0 e h2 h3).toBuf v = v := cast_eq _ v
theorem ofBuf_main_call0_v0 (e h2 h3) (v : (main_call0_v0.ty).Contents (Elt Ideal)) :
    (TRef.of (sig := sig) (T := ⟨S_, .f32⟩) main_call0_v0 e h2 h3).ofBuf v = v := cast_eq _ v
theorem ofBuf_main_cst_5 (e h2 h3) (v : (main_cst_5.ty).Contents (Elt Ideal)) :
    (TRef.of (sig := sig) (T := ⟨S_, .f32⟩) main_cst_5 e h2 h3).ofBuf v = v := cast_eq _ v
theorem ofBuf_main_v8 (e h2 h3) (v : (main_v8.ty).Contents (Elt Ideal)) :
    (TRef.of (sig := sig) (T := ⟨S100000, .f32⟩) main_v8 e h2 h3).ofBuf v = v := cast_eq _ v
theorem toBuf_main_v18 (e h2 h3) (v : (⟨S100000, .f32⟩ : BufTy).Contents (Elt Ideal)) :
    (TRef.of (sig := sig) (T := ⟨S100000, .f32⟩) main_v18 e h2 h3).toBuf v = v := cast_eq _ v
theorem toBuf_main_call1_v1 (e h2 h3) (v : (⟨S100000, .f32⟩ : BufTy).Contents (Elt Ideal)) :
    (TRef.of (sig := sig) (T := ⟨S100000, .f32⟩) main_call1_v1 e h2 h3).toBuf v = v := cast_eq _ v
theorem ofBuf_main_call1_v1 (e h2 h3) (v : (main_call1_v1.ty).Contents (Elt Ideal)) :
    (TRef.of (sig := sig) (T := ⟨S100000, .f32⟩) main_call1_v1 e h2 h3).ofBuf v = v := cast_eq _ v
theorem toBuf_main_call1_v0 (e h2 h3) (v : (⟨S_, .f32⟩ : BufTy).Contents (Elt Ideal)) :
    (TRef.of (sig := sig) (T := ⟨S_, .f32⟩) main_call1_v0 e h2 h3).toBuf v = v := cast_eq _ v
theorem ofBuf_main_call1_v0 (e h2 h3) (v : (main_call1_v0.ty).Contents (Elt Ideal)) :
    (TRef.of (sig := sig) (T := ⟨S_, .f32⟩) main_call1_v0 e h2 h3).ofBuf v = v := cast_eq _ v
theorem ofBuf_main_cst_6 (e h2 h3) (v : (main_cst_6.ty).Contents (Elt Ideal)) :
    (TRef.of (sig := sig) (T := ⟨S_, .f32⟩) main_cst_6 e h2 h3).ofBuf v = v := cast_eq _ v
theorem ofBuf_main_v16 (e h2 h3) (v : (main_v16.ty).Contents (Elt Ideal)) :
    (TRef.of (sig := sig) (T := ⟨S100000, .f32⟩) main_v16 e h2 h3).ofBuf v = v := cast_eq _ v

section Stretches

variable (W : Valuation τ sig (Elt Ideal))

/-! ## Before the first region -/

/-- The out-degree counts: ones scattered onto the source nodes. -/
theorem counts_src : StableHlo.after hostOps0 W (Proc.devRef .tc main_v8) = val_main_v8 (F := Ideal) (W (Proc.devRef .tc main_arg5)) := by
  after_results_simp
  unfold Cert.ReferenceIdeal.Read.val_main_v8 Cert.ReferenceIdeal.Read.val_main_v1 Cert.ReferenceIdeal.Read.val_main_cst_0 Cert.ReferenceIdeal.Read.val_main_v7 Cert.ReferenceIdeal.Read.val_main_v6 Cert.ReferenceIdeal.Read.val_main_v3 Cert.ReferenceIdeal.Read.val_main_v5 Cert.ReferenceIdeal.Read.val_main_v2 Cert.ReferenceIdeal.Read.val_main_c Cert.ReferenceIdeal.Read.val_main_v4 Cert.ReferenceIdeal.Read.val_main_c_1 Cert.ReferenceIdeal.Read.val_main_v0 Cert.ReferenceIdeal.Read.val_main_cst
  rw [scatter1_eq]

/-- The in-degree counts: ones scattered onto the destination nodes. -/
theorem counts_dst : StableHlo.after hostOps0 W (Proc.devRef .tc main_v16) = val_main_v17 (F := Ideal) (W (Proc.devRef .tc main_arg6)) := by
  after_results_simp
  unfold Cert.ReferenceIdeal.Read.val_main_v17 Cert.ReferenceIdeal.Read.val_main_v10 Cert.ReferenceIdeal.Read.val_main_cst_3 Cert.ReferenceIdeal.Read.val_main_v16 Cert.ReferenceIdeal.Read.val_main_v15 Cert.ReferenceIdeal.Read.val_main_v12 Cert.ReferenceIdeal.Read.val_main_v14 Cert.ReferenceIdeal.Read.val_main_v11 Cert.ReferenceIdeal.Read.val_main_c_4 Cert.ReferenceIdeal.Read.val_main_v13 Cert.ReferenceIdeal.Read.val_main_c_5 Cert.ReferenceIdeal.Read.val_main_v0 Cert.ReferenceIdeal.Read.val_main_cst
  rw [scatter1_eq]

/-- The first clamp's bound, the word of one. -/
theorem one_src : StableHlo.after hostOps0 W (Proc.devRef .tc main_cst_5) = val_main_cst_2 (F := Ideal) := by
  after_results_simp
  rfl

/-- The second clamp's bound. -/
theorem one_dst : StableHlo.after hostOps0_2 W (Proc.devRef .tc main_cst_6) = val_main_cst_6 (F := Ideal) := by
  after_results_simp
  rfl

/-- The first clamp: the maximum of the bound, broadcast, and the counts. -/
theorem clamp_src (x5 : (⟨Cert.ReferenceIdeal.S1600000, .i32⟩ : BufTy).Contents (Elt Ideal))
    (h1 : W (Proc.devRef .tc main_cst_5) = val_main_cst_2 (F := Ideal))
    (h8 : W (Proc.devRef .tc main_v8) = val_main_v8 (F := Ideal) x5) :
    StableHlo.after hostOps0_1 W (Proc.devRef .tc main_v17) = val_main_v9 (F := Ideal) x5 := by
  after_results_simp
  rw [h1, h8]
  simp only [toBuf_main_v17, toBuf_main_call0_v1, ofBuf_main_call0_v1, toBuf_main_call0_v0, ofBuf_main_call0_v0, ofBuf_main_cst_5, ofBuf_main_v8]
  unfold Cert.ReferenceIdeal.Read.val_main_v9 Cert.ReferenceIdeal.Read.val_main_call0_v1 Cert.ReferenceIdeal.Read.val_main_call0_v0
  with_reducible rfl

/-- The second clamp. -/
theorem clamp_dst (x6 : (⟨Cert.ReferenceIdeal.S1600000, .i32⟩ : BufTy).Contents (Elt Ideal))
    (h1 : W (Proc.devRef .tc main_cst_6) = val_main_cst_6 (F := Ideal))
    (h8 : W (Proc.devRef .tc main_v16) = val_main_v17 (F := Ideal) x6) :
    StableHlo.after hostOps0_3 W (Proc.devRef .tc main_v18) = val_main_v18 (F := Ideal) x6 := by
  after_results_simp
  rw [h1, h8]
  simp only [toBuf_main_v18, toBuf_main_call1_v1, ofBuf_main_call1_v1, toBuf_main_call1_v0, ofBuf_main_call1_v0, ofBuf_main_cst_6, ofBuf_main_v16]
  unfold Cert.ReferenceIdeal.Read.val_main_v18 Cert.ReferenceIdeal.Read.val_main_call1_v1 Cert.ReferenceIdeal.Read.val_main_call1_v0
  with_reducible rfl

/-- The source-norm column: the clamped out-degrees to the power -1/2, read at the row. -/
theorem col_src (x5 : (⟨Cert.ReferenceIdeal.S1600000, .i32⟩ : BufTy).Contents (Elt Ideal))
    (h17 : W (Proc.devRef .tc main_v17) = val_main_v9 (F := Ideal) x5) :
    StableHlo.after hostOps0_4 W (Proc.devRef .tc main_v21) = val_main_v23 (F := Ideal) x5 := by
  after_results_simp
  rw [h17]
  funext j
  obtain ⟨p, u, rfl⟩ : ∃ (p : Fin 100000) (u : Fin 1), j = ix2 p u := ⟨j 0, j 1, eq_ix2 j⟩
  rw [val_main_v23_apply]
  refine (Cert.LibColumn.shapeCast_a_a1_apply (a := 100000) _ _ p u).trans ?_
  rw [show idx_main_v23 (ix2 p u) = ix1 p from funext fun a => by match a with | ⟨0, _⟩ => rfl]
  unfold Cert.ReferenceIdeal.Read.val_main_v20 Cert.ReferenceIdeal.Read.val_main_v19 Cert.ReferenceIdeal.Read.val_main_cst_7
  with_reducible rfl

/-- The destination-norm column. -/
theorem col_dst (x6 : (⟨Cert.ReferenceIdeal.S1600000, .i32⟩ : BufTy).Contents (Elt Ideal))
    (h18 : W (Proc.devRef .tc main_v18) = val_main_v18 (F := Ideal) x6) :
    StableHlo.after hostOps0_4 W (Proc.devRef .tc main_v24) = val_main_v37 (F := Ideal) x6 := by
  after_results_simp
  rw [h18]
  funext j
  obtain ⟨p, u, rfl⟩ : ∃ (p : Fin 100000) (u : Fin 1), j = ix2 p u := ⟨j 0, j 1, eq_ix2 j⟩
  rw [val_main_v37_apply]
  refine (Cert.LibColumn.shapeCast_a_a1_apply (a := 100000) _ _ p u).trans ?_
  rw [show idx_main_v37 (ix2 p u) = ix1 p from funext fun a => by match a with | ⟨0, _⟩ => rfl]
  unfold Cert.ReferenceIdeal.Read.val_main_v22 Cert.ReferenceIdeal.Read.val_main_v21 Cert.ReferenceIdeal.Read.val_main_cst_8
  with_reducible rfl

/-- The first bias row: the bias vector read at the lane. -/
theorem row_b1 : StableHlo.after hostOps0_4 W (Proc.devRef .tc main_v25) = val_main_v40 (F := Ideal) (W (Proc.devRef .tc main_arg2)) := by
  after_results_simp
  funext j
  obtain ⟨u, e, rfl⟩ : ∃ (u : Fin 1) (e : Fin 64), j = ix2 u e := ⟨j 0, j 1, eq_ix2 j⟩
  rw [val_main_v40_apply]
  refine (ValueIdx.shapeCast_a_1a_apply (a := 64) _ _ u e).trans ?_
  rw [show idx_main_v40 (ix2 u e) = ix1 e from funext fun a => by match a with | ⟨0, _⟩ => rfl]

/-- The second bias row. -/
theorem row_b2 : StableHlo.after hostOps0_4 W (Proc.devRef .tc main_v26) = val_main_v61 (F := Ideal) (W (Proc.devRef .tc main_arg4)) := by
  after_results_simp
  funext j
  obtain ⟨u, e, rfl⟩ : ∃ (u : Fin 1) (e : Fin 2), j = ix2 u e := ⟨j 0, j 1, eq_ix2 j⟩
  rw [val_main_v61_apply]
  refine (ValueIdx.shapeCast_a_1a_apply (a := 2) _ _ u e).trans ?_
  rw [show idx_main_v61 (ix2 u e) = ix1 e from funext fun a => by match a with | ⟨0, _⟩ => rfl]

/-! ## Between the regions: the edge aggregation -/

/-- The first layer's aggregation: projected rows gathered by source node, summed by destination node. -/
theorem agg64 (x0 : (⟨Cert.ReferenceIdeal.S100000x128, .f32⟩ : BufTy).Contents (Elt Ideal))
    (x1 : (⟨Cert.ReferenceIdeal.S128x64, .f32⟩ : BufTy).Contents (Elt Ideal))
    (x5 x6 : (⟨Cert.ReferenceIdeal.S1600000, .i32⟩ : BufTy).Contents (Elt Ideal))
    (h27 : W (Proc.devRef .tc main_v27) = val_main_v26 (F := Ideal) x0 x1 x5)
    (h5 : W (Proc.devRef .tc main_arg5) = x5) (h6 : W (Proc.devRef .tc main_arg6) = x6) :
    StableHlo.after hostOps1 W (Proc.devRef .tc main_v37) = val_main_v36 (F := Ideal) x0 x1 x5 x6 := by
  after_results_simp
  rw [h27, h5, h6]
  unfold Cert.ReferenceIdeal.Read.val_main_v36 Cert.ReferenceIdeal.Read.val_main_v34 Cert.ReferenceIdeal.Read.val_main_v35 Cert.ReferenceIdeal.Read.val_main_v33 Cert.ReferenceIdeal.Read.val_main_cst_11 Cert.ReferenceIdeal.Read.val_main_v32 Cert.ReferenceIdeal.Read.val_main_v31 Cert.ReferenceIdeal.Read.val_main_v28 Cert.ReferenceIdeal.Read.val_main_v30 Cert.ReferenceIdeal.Read.val_main_v27 Cert.ReferenceIdeal.Read.val_main_c_9 Cert.ReferenceIdeal.Read.val_main_v29 Cert.ReferenceIdeal.Read.val_main_c_10
  rw [scatter64_eq, gather64_eq]

/-- The second layer's aggregation. -/
theorem agg2 (x0 : (⟨Cert.ReferenceIdeal.S100000x128, .f32⟩ : BufTy).Contents (Elt Ideal))
    (x1 : (⟨Cert.ReferenceIdeal.S128x64, .f32⟩ : BufTy).Contents (Elt Ideal))
    (x2 : (⟨Cert.ReferenceIdeal.S64, .f32⟩ : BufTy).Contents (Elt Ideal))
    (x3 : (⟨Cert.ReferenceIdeal.S64x2, .f32⟩ : BufTy).Contents (Elt Ideal))
    (x5 x6 : (⟨Cert.ReferenceIdeal.S1600000, .i32⟩ : BufTy).Contents (Elt Ideal))
    (h39 : W (Proc.devRef .tc main_v39) = val_main_v47 (F := Ideal) x0 x1 x2 x3 x5 x6)
    (h5 : W (Proc.devRef .tc main_arg5) = x5) (h6 : W (Proc.devRef .tc main_arg6) = x6) :
    StableHlo.after hostOps3 W (Proc.devRef .tc main_v49) = val_main_v57 (F := Ideal) x0 x1 x2 x3 x5 x6 := by
  after_results_simp
  rw [h39, h5, h6]
  unfold Cert.ReferenceIdeal.Read.val_main_v57 Cert.ReferenceIdeal.Read.val_main_v55 Cert.ReferenceIdeal.Read.val_main_v56 Cert.ReferenceIdeal.Read.val_main_v54 Cert.ReferenceIdeal.Read.val_main_cst_14 Cert.ReferenceIdeal.Read.val_main_v53 Cert.ReferenceIdeal.Read.val_main_v52 Cert.ReferenceIdeal.Read.val_main_v49 Cert.ReferenceIdeal.Read.val_main_v51 Cert.ReferenceIdeal.Read.val_main_v48 Cert.ReferenceIdeal.Read.val_main_c_12 Cert.ReferenceIdeal.Read.val_main_v50 Cert.ReferenceIdeal.Read.val_main_c_13
  rw [scatter2_eq, gather2_eq]

end Stretches

end Cert.HostStretches

end
-- ==== Proof.RefStages.lean ====
/-
  The reference's four dense stages, each as the whole-array function of its operands.

  The reference scales a matrix's rows by broadcasting the norm column along the lanes and multiplying entry by entry,
  projects by one matrix product over the whole array, and adds the bias by broadcasting the bias row down the rows. Read
  at an index (p, e): the product is the sum over k of (x (p, k) · n (p, 0)) · w (k, e), and the normalisation is
  a (p, e) · n (p, 0) + b (0, e), followed in the first layer by the maximum with zero.
-/
import proofs.«174959_j31851477467287_1_alg».proof.Proof.Gen.ReferenceIdeal.Read
import proofs.«174959_j31851477467287_1_alg».proof.Proof.Spec

noncomputable section

namespace Cert.ReferenceIdeal.HandStages

open Cert.ReferenceIdeal Cert.ReferenceIdeal.Gen Cert.ReferenceIdeal.Read
open Idealize.ShloMosaic Idealize.ShloMosaic.TcCoe Idealize.SL.Sem Idealize.ShloMosaic.ValueIdx

/-! ## The index maps of the layout operations, by coordinates -/

theorem lidx26 (p : Fin 100000) (e : Fin 64) (k : Fin 128) : lidx_main_v26 (ix2 p e) k = ix2 p k :=
  funext fun a => by match a with | ⟨0, _⟩ => rfl | ⟨1, _⟩ => rfl
theorem ridx26 (p : Fin 100000) (e : Fin 64) (k : Fin 128) : ridx_main_v26 (ix2 p e) k = ix2 k e :=
  funext fun a => by match a with | ⟨0, _⟩ => rfl | ⟨1, _⟩ => rfl
theorem idx24 (p : Fin 100000) (k : Fin 128) : idx_main_v24 (ix2 p k) = ix2 p (0 : Fin 1) :=
  funext fun a => by match a with | ⟨0, _⟩ => rfl | ⟨1, _⟩ => rfl
theorem lidx47 (p : Fin 100000) (e : Fin 2) (k : Fin 64) : lidx_main_v47 (ix2 p e) k = ix2 p k :=
  funext fun a => by match a with | ⟨0, _⟩ => rfl | ⟨1, _⟩ => rfl
theorem ridx47 (p : Fin 100000) (e : Fin 2) (k : Fin 64) : ridx_main_v47 (ix2 p e) k = ix2 k e :=
  funext fun a => by match a with | ⟨0, _⟩ => rfl | ⟨1, _⟩ => rfl
theorem idx45 (p : Fin 100000) (k : Fin 64) : idx_main_v45 (ix2 p k) = ix2 p (0 : Fin 1) :=
  funext fun a => by match a with | ⟨0, _⟩ => rfl | ⟨1, _⟩ => rfl
theorem idx38 (p : Fin 100000) (e : Fin 64) : idx_main_v38 (ix2 p e) = ix2 p (0 : Fin 1) :=
  funext fun a => by match a with | ⟨0, _⟩ => rfl | ⟨1, _⟩ => rfl
theorem idx41 (p : Fin 100000) (e : Fin 64) : idx_main_v41 (ix2 p e) = ix2 (0 : Fin 1) e :=
  funext fun a => by match a with | ⟨0, _⟩ => rfl | ⟨1, _⟩ => rfl
theorem idx59 (p : Fin 100000) (e : Fin 2) : idx_main_v59 (ix2 p e) = ix2 p (0 : Fin 1) :=
  funext fun a => by match a with | ⟨0, _⟩ => rfl | ⟨1, _⟩ => rfl
theorem idx62 (p : Fin 100000) (e : Fin 2) : idx_main_v62 (ix2 p e) = ix2 (0 : Fin 1) e :=
  funext fun a => by match a with | ⟨0, _⟩ => rfl | ⟨1, _⟩ => rfl

/-! ## The stages -/

/-- The first layer's projection: the features' rows scaled by the source norm, times the first weight matrix. -/
theorem stage_v26 (x0 : (⟨S100000x128, .f32⟩ : BufTy).Contents (Elt Ideal)) (x1 : (⟨S128x64, .f32⟩ : BufTy).Contents (Elt Ideal))
    (x5 : (⟨S1600000, .i32⟩ : BufTy).Contents (Elt Ideal)) :
    val_main_v26 (F := Ideal) x0 x1 x5 = Cert.Spec.scaleProject x0 (val_main_v23 (F := Ideal) x5) x1 := by
  funext i
  obtain ⟨p, e, rfl⟩ : ∃ (p : Fin 100000) (e : Fin 64), i = ix2 p e := ⟨i 0, i 1, eq_ix2 i⟩
  rw [val_main_v26_apply]
  show _ = ∑ k : Fin 128, (x0 (ix2 p k) * val_main_v23 (F := Ideal) x5 (ix2 p (0 : Fin 1))) * x1 (ix2 k e)
  refine Finset.sum_congr rfl fun k _ => ?_
  rw [val_main_v25_apply, val_main_v24_apply, lidx26, ridx26, idx24]
  rfl

/-- The first layer's normalisation: the aggregate's rows scaled by the destination norm, the bias added, the
    maximum with zero. -/
theorem stage_v43 (x0 : (⟨S100000x128, .f32⟩ : BufTy).Contents (Elt Ideal)) (x1 : (⟨S128x64, .f32⟩ : BufTy).Contents (Elt Ideal))
    (x2 : (⟨S64, .f32⟩ : BufTy).Contents (Elt Ideal)) (x5 x6 : (⟨S1600000, .i32⟩ : BufTy).Contents (Elt Ideal)) :
    val_main_v43 (F := Ideal) x0 x1 x2 x5 x6
      = Cert.Spec.normBiasRelu (val_main_v36 (F := Ideal) x0 x1 x5 x6) (val_main_v37 (F := Ideal) x6) (val_main_v40 (F := Ideal) x2) := by
  funext i
  obtain ⟨p, e, rfl⟩ : ∃ (p : Fin 100000) (e : Fin 64), i = ix2 p e := ⟨i 0, i 1, eq_ix2 i⟩
  rw [val_main_v43_apply, val_main_v42_apply, val_main_v39_apply, val_main_v38_apply, val_main_v41_apply,
    val_main_call2_v0_apply, val_main_call2_cst_apply, idx38, idx41]
  rfl

/-- The second layer's projection: the hidden rows scaled by the source norm, times the second weight matrix. -/
theorem stage_v47 (x0 : (⟨S100000x128, .f32⟩ : BufTy).Contents (Elt Ideal)) (x1 : (⟨S128x64, .f32⟩ : BufTy).Contents (Elt Ideal))
    (x2 : (⟨S64, .f32⟩ : BufTy).Contents (Elt Ideal)) (x3 : (⟨S64x2, .f32⟩ : BufTy).Contents (Elt Ideal))
    (x5 x6 : (⟨S1600000, .i32⟩ : BufTy).Contents (Elt Ideal)) :
    val_main_v47 (F := Ideal) x0 x1 x2 x3 x5 x6
      = Cert.Spec.scaleProject (val_main_v43 (F := Ideal) x0 x1 x2 x5 x6) (val_main_v44 (F := Ideal) x5) x3 := by
  funext i
  obtain ⟨p, e, rfl⟩ : ∃ (p : Fin 100000) (e : Fin 2), i = ix2 p e := ⟨i 0, i 1, eq_ix2 i⟩
  rw [val_main_v47_apply]
  show _ = ∑ k : Fin 64, (val_main_v43 (F := Ideal) x0 x1 x2 x5 x6 (ix2 p k) * val_main_v44 (F := Ideal) x5 (ix2 p (0 : Fin 1))) * x3 (ix2 k e)
  refine Finset.sum_congr rfl fun k _ => ?_
  rw [val_main_v46_apply, val_main_v45_apply, lidx47, ridx47, idx45]
  rfl

/-- The second layer's normalisation: the aggregate's rows scaled by the destination norm, the bias added. -/
theorem stage_v63 (x0 : (⟨S100000x128, .f32⟩ : BufTy).Contents (Elt Ideal)) (x1 : (⟨S128x64, .f32⟩ : BufTy).Contents (Elt Ideal))
    (x2 : (⟨S64, .f32⟩ : BufTy).Contents (Elt Ideal)) (x3 : (⟨S64x2, .f32⟩ : BufTy).Contents (Elt Ideal))
    (x4 : (⟨S2, .f32⟩ : BufTy).Contents (Elt Ideal)) (x5 x6 : (⟨S1600000, .i32⟩ : BufTy).Contents (Elt Ideal)) :
    val_main_v63 (F := Ideal) x0 x1 x2 x3 x4 x5 x6
      = Cert.Spec.normBias (val_main_v57 (F := Ideal) x0 x1 x2 x3 x5 x6) (val_main_v58 (F := Ideal) x6) (val_main_v61 (F := Ideal) x4) := by
  funext i
  obtain ⟨p, e, rfl⟩ : ∃ (p : Fin 100000) (e : Fin 2), i = ix2 p e := ⟨i 0, i 1, eq_ix2 i⟩
  rw [val_main_v63_apply, val_main_v60_apply, val_main_v59_apply, val_main_v62_apply, idx59, idx62]
  rfl

end Cert.ReferenceIdeal.HandStages

end
-- ==== Proof.LibPlainDot.lean ====
/-
  A plain matrix product read at an index, at the extended reals.

  For a rank-2 product `[M, K] · [K, N] → [M, N]` (one contracted axis: the left operand's columns against the right
  operand's rows, no batch axis) accumulated into the zero block, the entry at `(p, e)` is the finite sum over the
  contracted coordinate `k` of `lhs (p, k) · rhs (k, e)`. The product's dimension record enters only through four
  coordinate facts about its operand index maps (each is a one-line computation for a literal record), so the lemma
  serves any such record at any extents.
-/
import Idealize.ShloMosaic.Lib.ValueIdx
import Idealize.ShloMosaic.PureOps.Ideal.Laws

noncomputable section

namespace Cert.LibPlainDot

open Idealize.ShloMosaic Idealize.ShloMosaic.ValueIdx

/-- `[M, K] · [K, N]` into the zero accumulator, at `(p, e)`: `∑ₖ lhs (p, k) · rhs (k, e)`. The hypotheses say that the
    record contracts ONE axis of extent `K`, that the left operand is read at (output row, contracted coordinate) and the
    right operand at (contracted coordinate, output column). -/
theorem matmul_zero_apply {M K N : ℕ} {φ₁ φ₂ : FTy}
    (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![M, K]⟩ φ₁) (rhs : FVec Ideal ⟨2, ![K, N]⟩ φ₂) (p : Fin M) (e : Fin N) :
    matmul D none lhs rhs (constant (F := Ideal) ⟨2, ![M, N]⟩ .f32 0x00000000#32) (ix2 p e)
      = ∑ k : Fin K, lhs (ix2 p k) * rhs (ix2 k e) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p e) ((contrEquiv1 D K hr hs).symm k) = ix2 p k := funext fun a => Fin.ext (by
    match a with
    | ⟨0, _⟩ => exact hl0 _ _
    | ⟨1, _⟩ => exact (hl1 _ _).trans hk)
  have er : D.rhsIdx (ix2 p e) ((contrEquiv1 D K hr hs).symm k) = ix2 k e := funext fun a => Fin.ext (by
    match a with
    | ⟨0, _⟩ => exact (hr0 _ _).trans hk
    | ⟨1, _⟩ => exact hr1 _ _)
  rw [el, er]

end Cert.LibPlainDot

end
-- ==== Proof.Region0.lean ====
/-
  Region 0: the first layer's projection, over all row tiles.
-/
import proofs.«174959_j31851477467287_1_alg».proof.Proof.Gen.KernelIdeal.Frame
import proofs.«174959_j31851477467287_1_alg».proof.Proof.Spec
import proofs.«174959_j31851477467287_1_alg».proof.Proof.LibColumn
import proofs.«174959_j31851477467287_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand0

open Cert.KernelIdeal Cert.KernelIdeal.Gen

variable (V : (c : Dev nD) → (b : Ref sig .tc) → Buf (Elt Ideal) ((c : Thread nD τ).loc b))

/-- The product's left operand is read, on its row axis, at the output's row. -/
theorem dot_lhs0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl

/-- The product's left operand is read, on its column axis, at the contracted coordinate. -/
theorem dot_lhs1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q

/-- The product's right operand is read, on its row axis, at the contracted coordinate. -/
theorem dot_rhs0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q

/-- The product's right operand is read, on its column axis, at the output's column. -/
theorem dot_rhs1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The body's stored value at `(p, e)`: the row-scaled block times the weight block. -/
theorem pay_apply (v0 : Vec Ideal S2000x1 .f32) (v4 : Vec Ideal S2000x128 .f32) (v7 : Vec Ideal S128x64 .f32)
    (p : Fin 2000) (e : Fin 64) :
    k0_pay1 v0 v4 v7 (ix2 p e) = ∑ k : Fin 128, (v4 (ix2 p k) * v0 (ix2 p (0 : Fin 1))) * v7 (ix2 k e) := by
  unfold k0_pay1
  refine (LibPlainDot.matmul_zero_apply dot_S2000x128_S128x64_S2000x64_1_0_0_1_n_n rfl rfl dot_lhs0 dot_lhs1 dot_rhs0 dot_rhs1 _ _ p e).trans ?_
  refine Finset.sum_congr rfl fun k _ => ?_
  rw [truncf_apply, truncf_apply, mulf_apply, LibColumn.broadcastTo_a1_ab_apply, shapeCast_self, shapeCast_self]

/-- The body's stored value at the block index `(p, e)` is the stage's entry at the array index `(P, e)`, once each input
    block is its array read where the output's row `P` says: row `p` of the feature block and of the scale block are rows
    `P` of their arrays, and the weight block is the weight array. -/
theorem point_eq (x0 : Vec Ideal S2000x128 .f32) (x1 : Vec Ideal S2000x1 .f32) (x2 : Vec Ideal S128x64 .f32)
    (A0 : Vec Ideal S100000x128 .f32) (A1 : Vec Ideal S100000x1 .f32) (A2 : Vec Ideal S128x64 .f32)
    (p : Fin 2000) (e : Fin 64) (P : Fin 100000)
    (h0 : ∀ k : Fin 128, x0 (ix2 p k) = A0 (ix2 P k))
    (h1 : x1 (ix2 p (0 : Fin 1)) = A1 (ix2 P (0 : Fin 1)))
    (h2 : ∀ k : Fin 128, x2 (ix2 k e) = A2 (ix2 k e)) :
    k0_pay1 x1 x0 x2 (ix2 p e) = Cert.Spec.scaleProject A0 A1 A2 (ix2 P e) := by
  rw [pay_apply]
  show _ = ∑ k : Fin 128, (A0 (ix2 P k) * A1 (ix2 P (0 : Fin 1))) * A2 (ix2 k e)
  refine Finset.sum_congr rfl fun k _ => ?_
  rw [h0, h1, h2]

/-- The zero offset of an access to a whole block, as the constant function. -/
theorem hz : (![0, 0] : Fin 2 → Nat) = fun _ => 0 := funext fun a => by fin_cases a <;> rfl

/-- The printed index maps over the grid: the two row-tiled inputs and the output sit at row tile `t`, lane tile 0; the
    weight block is the whole weight array at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the stage's whole-array function of the arrays as the region finds them. -/
theorem flushed_eq (c : Dev nD) (t : Fin cfg0.N) :
    (dat0 V c).flushed 3 t = ((cfg0.win 3).blk t).view.read (Elt Ideal)
      (Cert.Spec.scaleProject (V c main_arg0) (V c main_v21) (V c main_arg1)) := by
  show (cfg0.win 3).cut (grid0.coords t) ((dat0 V c).after 3 t) = _
  rw [after0_3]
  unfold out0_3
  rw [View.canon_unit_zero hz]
  simp only [View.ld_unit_zero (S := S2000x1) hz, View.ld_unit_zero (S := S2000x128) hz, View.ld_unit_zero (S := S128x64) hz]
  obtain ⟨e0, e1, e2, e3, e4, e5, e6, e7⟩ := idx_facts t
  have hN : cfg0.N = 50 := N_0
  have ht : t.val < 50 := hN ▸ t.isLt
  funext j
  obtain ⟨p, e, rfl⟩ : ∃ (p : Fin 2000) (e : Fin 64), j = ix2 p e := ⟨j 0, j 1, eq_ix2 (n0 := 2000) (n1 := 64) j⟩
  have hp : t.val * 2000 + p.val < 100000 := by have := p.isLt; omega
  show k0_pay1 (iblk0 V c 1 t) (iblk0 V c 0 t) (iblk0 V c 2 t) (ix2 p e)
    = Cert.Spec.scaleProject (V c main_arg0) (V c main_v21) (V c main_arg1) (((cfg0.win 3).blk t).view.emb (ix2 p e))
  have hi : ((cfg0.win 3).blk t).view.emb (ix2 p e) = ix2 (⟨t.val * 2000 + p.val, hp⟩ : Fin 100000) e := by
    funext a; apply Fin.ext
    match a with
    | ⟨0, _⟩ => show win0_3.index t (0 : Fin 2) * 2000 + 1 * p.val = t.val * 2000 + p.val; omega
    | ⟨1, _⟩ => show win0_3.index t (1 : Fin 2) * 64 + 1 * e.val = e.val; omega
  rw [hi]
  refine point_eq _ _ _ _ _ _ p e ⟨t.val * 2000 + p.val, hp⟩ (fun k => ?_) ?_ (fun k => ?_)
  · show V c main_arg0 (((cfg0.win 0).blk t).view.emb (ix2 p k)) = V c main_arg0 (ix2 (⟨t.val * 2000 + p.val, hp⟩ : Fin 100000) k)
    refine congrArg (V c main_arg0) (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  · show V c main_v21 (((cfg0.win 1).blk t).view.emb (ix2 p (0 : Fin 1))) = V c main_v21 (ix2 (⟨t.val * 2000 + p.val, hp⟩ : Fin 100000) (0 : Fin 1))
    refine congrArg (V c main_v21) (funext fun a => Fin.ext ?_)
    match a with
    | ⟨0, _⟩ => show win0_1.index t (0 : Fin 2) * 2000 + 1 * p.val = t.val * 2000 + p.val; omega
    | ⟨1, _⟩ => show win0_1.index t (1 : Fin 2) * 1 + 1 * 0 = 0; omega
  · show V c main_arg1 (((cfg0.win 2).blk t).view.emb (ix2 k e)) = V c main_arg1 (ix2 k e)
    refine congrArg (V c main_arg1) (funext fun a => Fin.ext ?_)
    match a with
    | ⟨0, _⟩ => show win0_2.index t (0 : Fin 2) * 128 + 1 * k.val = k.val; omega
    | ⟨1, _⟩ => show win0_2.index t (1 : Fin 2) * 64 + 1 * e.val = e.val; omega

/-- An index of the output array is in point `t`'s block iff each coordinate is in the block's range on its axis. -/
theorem mem_blk (t : Fin cfg0.N) (i : S100000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v27).slice (win0_3.rect t)).set ↔ _
  rw [View.set_slice_whole, Rect.mem_set_unit]
  exact Iff.rfl

/-- Every index of the output array is written back by some point: row `r` lies in the block of point `r / 2000`. -/
theorem cover (i : S100000x64.Idx) :
    ∃ t : Fin cfg0.N, (cfg0.win 3).flush t = true ∧ i ∈ ((cfg0.win 3).blk t).view.set := by
  have hN : cfg0.N = 50 := N_0
  have hi0 : (i 0).val < 100000 := (i 0).isLt
  have hi1 : (i 1).val < 64 := (i 1).isLt
  obtain ⟨t, ht⟩ : ∃ t : Fin cfg0.N, t.val = (i 0).val / 2000 := ⟨⟨(i 0).val / 2000, by rw [hN]; omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 64 ≤ (i 1).val ∧ (i 1).val < win0_3.index t (1 : Fin 2) * 64 + 64
    omega

/-- After the region's fifty row tiles the output array holds the stage's whole-array function of the three input
    arrays as the region found them. -/
theorem final (c : Dev nD) :
    (dat0 V c).arrAt 3 cfg0.N = Cert.Spec.scaleProject (V c main_arg0) (V c main_v21) (V c main_arg1) :=
  (dat0 V c).arrAt_eq_of_cover 3 _ (fun t _ => flushed_eq V c t) cover

end Cert.KernelIdeal.Hand0

end
-- ==== Proof.Region1.lean ====
/-
  Region 1: the first layer's normalisation, bias and rectifier, over all row tiles.
-/
import proofs.«174959_j31851477467287_1_alg».proof.Proof.Gen.KernelIdeal.Frame
import proofs.«174959_j31851477467287_1_alg».proof.Proof.Spec
import proofs.«174959_j31851477467287_1_alg».proof.Proof.LibColumn
import proofs.«174959_j31851477467287_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand1

open Cert.KernelIdeal Cert.KernelIdeal.Gen

variable (V : (c : Dev nD) → (b : Ref sig .tc) → Buf (Elt Ideal) ((c : Thread nD τ).loc b))

/-- The zero offsets of a whole-block access, as the constant function. -/
theorem hz : (![0, 0] : Fin 2 → Nat) = fun _ => 0 := funext fun a => by fin_cases a <;> rfl

/-- The body's stored value at row `p`, lane `e` of a tile: the tile's entry scaled by the row's entry of the column,
    plus the lane's entry of the bias row, then the maximum with the zero word's value. The two self-casts are the
    identity, the column broadcast reads the column's row, the row broadcast reads the row's lane, and the broadcast
    scalar is the zero word's value. -/
theorem pay_apply (v0 : Vec Ideal S2000x1 .f32) (v4 : Vec Ideal S1x64 .f32) (v8 : Vec Ideal S2000x64 .f32)
    (p : Fin 2000) (e : Fin 64) :
    k1_pay1 v0 v4 v8 (ix2 p e)
      = max (v8 (ix2 p e) * v0 (ix2 p (0 : Fin 1)) + v4 (ix2 (0 : Fin 1) e)) (Ideal.ofBits .f32 0x00000000#32) := by
  unfold k1_pay1
  simp only [shapeCast_self]
  rw [maximumf_apply, addf_apply, mulf_apply, Cert.LibColumn.broadcastTo_a1_ab_apply, broadcastTo_1b_ab_apply, broadcast_apply]
  rfl

/-- The windows' block indices at grid point `t`: the tile, the column and the output move down by one block of rows
    per point; the bias row stays at its one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Point `t`'s block of the first input is rows `2000 t … 2000 t + 1999` of its array. -/
theorem blk0_apply (c : Dev nD) (t : Fin cfg1.N) (y : S2000x64.Idx) (k : S100000x64.Idx)
    (hk0 : (k 0).val = 2000 * t.val + (y 0).val) (hk1 : (k 1).val = (y 1).val) :
    (iblk1 V c 0 t : Vec Ideal S2000x64 .f32) y = (V c main_v37 : S100000x64.Idx → Elt Ideal .f32) k := by
  obtain ⟨e0, e1, -⟩ := idx_facts t
  unfold iblk1
  rw [View.read_apply]
  show V c main_v37 _ = V c main_v37 _
  refine congrArg _ ?_
  funext a
  apply Fin.ext
  match a with
  | ⟨0, _⟩ => show win1_0.index t 0 * 2000 + 1 * (y 0).val = (k 0).val; rw [e0, hk0]; omega
  | ⟨1, _⟩ => show win1_0.index t 1 * 64 + 1 * (y 1).val = (k 1).val; rw [e1, hk1]; omega

/-- Point `t`'s block of the column is the same rows of the column's array. -/
theorem blk1_apply (c : Dev nD) (t : Fin cfg1.N) (y : S2000x1.Idx) (k : S100000x1.Idx)
    (hk0 : (k 0).val = 2000 * t.val + (y 0).val) (hk1 : (k 1).val = (y 1).val) :
    (iblk1 V c 1 t : Vec Ideal S2000x1 .f32) y = (V c main_v24 : S100000x1.Idx → Elt Ideal .f32) k := by
  obtain ⟨-, -, e0, e1, -⟩ := idx_facts t
  unfold iblk1
  rw [View.read_apply]
  show V c main_v24 _ = V c main_v24 _
  refine congrArg _ ?_
  funext a
  apply Fin.ext
  match a with
  | ⟨0, _⟩ => show win1_1.index t 0 * 2000 + 1 * (y 0).val = (k 0).val; rw [e0, hk0]; omega
  | ⟨1, _⟩ => show win1_1.index t 1 * 1 + 1 * (y 1).val = (k 1).val; rw [e1, hk1]; omega

/-- Every point's block of the bias row is the whole row. -/
theorem blk2_apply (c : Dev nD) (t : Fin cfg1.N) (y : S1x64.Idx) :
    (iblk1 V c 2 t : Vec Ideal S1x64 .f32) y = (V c main_v25 : S1x64.Idx → Elt Ideal .f32) y := by
  obtain ⟨-, -, -, -, e0, e1, -⟩ := idx_facts t
  unfold iblk1
  rw [View.read_apply]
  show V c main_v25 _ = V c main_v25 _
  refine congrArg _ ?_
  funext a
  apply Fin.ext
  match a with
  | ⟨0, _⟩ => show win1_2.index t 0 * 1 + 1 * (y 0).val = (y 0).val; rw [e0]; omega
  | ⟨1, _⟩ => show win1_2.index t 1 * 64 + 1 * (y 1).val = (y 1).val; rw [e1]; omega

/-- The stage's whole-array function at row `r`, lane `e`, with the index's coordinates read off. -/
theorem spec_apply (a : FVec Ideal S100000x64 .f32) (n : FVec Ideal S100000x1 .f32) (b : FVec Ideal S1x64 .f32)
    (r : Fin 100000) (e : Fin 64) :
    Cert.Spec.normBiasRelu a n b (ix2 r e)
      = max (a (ix2 r e) * n (ix2 r (0 : Fin 1)) + b (ix2 (0 : Fin 1) e)) (Ideal.ofBits .f32 0x00000000#32) := rfl

/-- WHAT POINT `t` WRITES BACK is block `t` of the stage's whole-array function of the three input arrays: entry
    `(p, e)` of the block is the body's value at `(p, e)`, whose three reads sit in the arrays at row `2000 t + p`. -/
theorem flushed_eq (c : Dev nD) (t : Fin cfg1.N) :
    (dat1 V c).flushed 3 t
      = ((cfg1.win 3).blk t).view.read (Elt Ideal) (Cert.Spec.normBiasRelu (V c main_v37) (V c main_v24) (V c main_v25)) := by
  show (cfg1.win 3).cut (grid1.coords t) ((dat1 V c).after 3 t) = _
  rw [after1_3]
  unfold out1_3
  rw [View.canon_unit_zero hz]
  simp only [View.ld_unit_zero (S := S2000x1) hz, View.ld_unit_zero (S := S1x64) hz, View.ld_unit_zero (S := S2000x64) hz]
  obtain ⟨-, -, -, -, -, -, e0, e1⟩ := idx_facts t
  have hN : cfg1.N = 50 := N_1
  have ht : t.val < 50 := hN ▸ t.isLt
  funext j
  obtain ⟨p, e, rfl⟩ : ∃ (p : Fin 2000) (e : Fin 64), j = ix2 p e := ⟨j 0, j 1, eq_ix2 (n0 := 2000) (n1 := 64) j⟩
  have hi : ((cfg1.win 3).blk t).view.emb (ix2 p e) = (ix2 (⟨2000 * t.val + p.val, by omega⟩ : Fin 100000) e : S100000x64.Idx) := by
    funext a
    apply Fin.ext
    match a with
    | ⟨0, _⟩ => show win1_3.index t 0 * 2000 + 1 * p.val = 2000 * t.val + p.val; rw [e0]; omega
    | ⟨1, _⟩ => show win1_3.index t 1 * 64 + 1 * e.val = e.val; rw [e1]; omega
  rw [View.read_apply, hi]
  show k1_pay1 (iblk1 V c 1 t) (iblk1 V c 2 t) (iblk1 V c 0 t) (ix2 p e) = _
  refine ((pay_apply _ _ _ p e).trans ?_).trans (spec_apply _ _ _ ⟨2000 * t.val + p.val, by omega⟩ e).symm
  rw [blk0_apply V c t (ix2 p e) (ix2 (⟨2000 * t.val + p.val, by omega⟩ : Fin 100000) e) rfl rfl,
    blk1_apply V c t (ix2 p (0 : Fin 1)) (ix2 (⟨2000 * t.val + p.val, by omega⟩ : Fin 100000) (0 : Fin 1)) rfl rfl,
    blk2_apply V c t (ix2 (0 : Fin 1) e)]

/-- An index of the output array is in point `t`'s block iff each coordinate is in the block's range on its axis. -/
theorem mem_blk (t : Fin cfg1.N) (i : S100000x64.Idx) :
    i ∈ ((cfg1.win 3).blk t).view.set
      ↔ ∀ a : Fin 2, win1_3.index t a * S2000x64.size a ≤ (i a).val ∧ (i a).val < win1_3.index t a * S2000x64.size a + S2000x64.size a := by
  show i ∈ ((View.whole main_v38).slice (win1_3.rect t)).set ↔ _
  rw [View.set_slice_whole, Rect.mem_set_unit]
  exact Iff.rfl

/-- Row `r` of the output array is in the block of point `r / 2000`, and every point writes its block back. -/
theorem cover (i : S100000x64.Idx) :
    ∃ t : Fin cfg1.N, (cfg1.win 3).flush t = true ∧ i ∈ ((cfg1.win 3).blk t).view.set := by
  have hN : cfg1.N = 50 := N_1
  have hi0 : (i 0).val < 100000 := (i 0).isLt
  have hi1 : (i 1).val < 64 := (i 1).isLt
  let t : Fin cfg1.N := ⟨(i 0).val / 2000, by rw [hN]; omega⟩
  obtain ⟨-, -, -, -, -, -, e0, e1⟩ := idx_facts t
  have htv : t.val = (i 0).val / 2000 := rfl
  refine ⟨t, flush1_3 t, ?_⟩
  rw [mem_blk]
  intro a
  match a with
  | ⟨0, _⟩ => show win1_3.index t 0 * 2000 ≤ (i 0).val ∧ (i 0).val < win1_3.index t 0 * 2000 + 2000; rw [e0, htv]; omega
  | ⟨1, _⟩ => show win1_3.index t 1 * 64 ≤ (i 1).val ∧ (i 1).val < win1_3.index t 1 * 64 + 64; rw [e1]; omega

/-- After the region's fifty row tiles the output array holds the stage's whole-array function of the three input
    arrays as the region found them. -/
theorem final (c : Dev nD) :
    (dat1 V c).arrAt 3 cfg1.N = Cert.Spec.normBiasRelu (V c main_v37) (V c main_v24) (V c main_v25) :=
  (dat1 V c).arrAt_eq_of_cover 3 _ (fun t _ => flushed_eq V c t) cover

end Cert.KernelIdeal.Hand1

end
-- ==== Proof.Region2.lean ====
/-
  Region 2: the second layer's projection, over all row tiles.
-/
import proofs.«174959_j31851477467287_1_alg».proof.Proof.Gen.KernelIdeal.Frame
import proofs.«174959_j31851477467287_1_alg».proof.Proof.Spec
import proofs.«174959_j31851477467287_1_alg».proof.Proof.LibColumn
import proofs.«174959_j31851477467287_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand2

open Cert.KernelIdeal Cert.KernelIdeal.Gen

variable (V : (c : Dev nD) → (b : Ref sig .tc) → Buf (Elt Ideal) ((c : Thread nD τ).loc b))

/-- The product's left operand is read, on its row axis, at the output's row. -/
theorem dot_lhs0 (i : S2000x2.Idx) (q : dot_S2000x64_S64x2_S2000x2_1_0_0_1_n_n.contr.Idx) :
    (dot_S2000x64_S64x2_S2000x2_1_0_0_1_n_n.lhsIdx i q 0).val = (i 0).val := by
  unfold DotDims.lhsIdx
  rw [dif_neg (show ¬(0 : Fin S2000x64.rank) ∈ dot_S2000x64_S64x2_S2000x2_1_0_0_1_n_n.lhsBatch by decide), dif_pos (show (0 : Fin S2000x64.rank) ∈ dot_S2000x64_S64x2_S2000x2_1_0_0_1_n_n.lhsNonContracting by decide)]
  rfl

/-- The product's left operand is read, on its column axis, at the contracted coordinate. -/
theorem dot_lhs1 (i : S2000x2.Idx) (q : dot_S2000x64_S64x2_S2000x2_1_0_0_1_n_n.contr.Idx) :
    (dot_S2000x64_S64x2_S2000x2_1_0_0_1_n_n.lhsIdx i q 1).val = (q ⟨0, by decide⟩).val :=
  dot_S2000x64_S64x2_S2000x2_1_0_0_1_n_n.lhsIdx_val_of_single rfl i q

/-- The product's right operand is read, on its row axis, at the contracted coordinate. -/
theorem dot_rhs0 (i : S2000x2.Idx) (q : dot_S2000x64_S64x2_S2000x2_1_0_0_1_n_n.contr.Idx) :
    (dot_S2000x64_S64x2_S2000x2_1_0_0_1_n_n.rhsIdx i q 0).val = (q ⟨0, by decide⟩).val :=
  dot_S2000x64_S64x2_S2000x2_1_0_0_1_n_n.rhsIdx_val_of_single rfl i q

/-- The product's right operand is read, on its column axis, at the output's column. -/
theorem dot_rhs1 (i : S2000x2.Idx) (q : dot_S2000x64_S64x2_S2000x2_1_0_0_1_n_n.contr.Idx) :
    (dot_S2000x64_S64x2_S2000x2_1_0_0_1_n_n.rhsIdx i q 1).val = (i 1).val := by
  unfold DotDims.rhsIdx
  rw [dif_neg (show ¬(1 : Fin S64x2.rank) ∈ dot_S2000x64_S64x2_S2000x2_1_0_0_1_n_n.rhsBatch by decide), dif_pos (show (1 : Fin S64x2.rank) ∈ dot_S2000x64_S64x2_S2000x2_1_0_0_1_n_n.rhsNonContracting by decide)]
  rfl

/-- The body's stored value at `(p, e)`: the row-scaled block times the weight block. -/
theorem pay_apply (v0 : Vec Ideal S2000x1 .f32) (v4 : Vec Ideal S2000x64 .f32) (v7 : Vec Ideal S64x2 .f32)
    (p : Fin 2000) (e : Fin 2) :
    k2_pay1 v0 v4 v7 (ix2 p e) = ∑ k : Fin 64, (v4 (ix2 p k) * v0 (ix2 p (0 : Fin 1))) * v7 (ix2 k e) := by
  unfold k2_pay1
  refine (LibPlainDot.matmul_zero_apply dot_S2000x64_S64x2_S2000x2_1_0_0_1_n_n rfl rfl dot_lhs0 dot_lhs1 dot_rhs0 dot_rhs1 _ _ p e).trans ?_
  refine Finset.sum_congr rfl fun k _ => ?_
  rw [truncf_apply, truncf_apply, mulf_apply, LibColumn.broadcastTo_a1_ab_apply, shapeCast_self, shapeCast_self, shapeCast_self]

/-- The body's stored value at the block index `(p, e)` is the stage's entry at the array index `(P, e)`, once each input
    block is its array read where the output's row `P` says: row `p` of the activation block and of the scale block are rows
    `P` of their arrays, and the weight block is the weight array. -/
theorem point_eq (x0 : Vec Ideal S2000x64 .f32) (x1 : Vec Ideal S2000x1 .f32) (x2 : Vec Ideal S64x2 .f32)
    (A0 : Vec Ideal S100000x64 .f32) (A1 : Vec Ideal S100000x1 .f32) (A2 : Vec Ideal S64x2 .f32)
    (p : Fin 2000) (e : Fin 2) (P : Fin 100000)
    (h0 : ∀ k : Fin 64, x0 (ix2 p k) = A0 (ix2 P k))
    (h1 : x1 (ix2 p (0 : Fin 1)) = A1 (ix2 P (0 : Fin 1)))
    (h2 : ∀ k : Fin 64, x2 (ix2 k e) = A2 (ix2 k e)) :
    k2_pay1 x1 x0 x2 (ix2 p e) = Cert.Spec.scaleProject A0 A1 A2 (ix2 P e) := by
  rw [pay_apply]
  show _ = ∑ k : Fin 64, (A0 (ix2 P k) * A1 (ix2 P (0 : Fin 1))) * A2 (ix2 k e)
  refine Finset.sum_congr rfl fun k _ => ?_
  rw [h0, h1, h2]

/-- The zero offset of an access to a whole block, as the constant function. -/
theorem hz : (![0, 0] : Fin 2 → Nat) = fun _ => 0 := funext fun a => by fin_cases a <;> rfl

/-- The printed index maps over the grid: the two row-tiled inputs and the output sit at row tile `t`, lane tile 0; the
    weight block is the whole weight array at every point. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the stage's whole-array function of the arrays as the region finds them. -/
theorem flushed_eq (c : Dev nD) (t : Fin cfg2.N) :
    (dat2 V c).flushed 3 t = ((cfg2.win 3).blk t).view.read (Elt Ideal)
      (Cert.Spec.scaleProject (V c main_v38) (V c main_v21) (V c main_arg3)) := by
  show (cfg2.win 3).cut (grid2.coords t) ((dat2 V c).after 3 t) = _
  rw [after2_3]
  unfold out2_3
  rw [View.canon_unit_zero hz]
  simp only [View.ld_unit_zero (S := S2000x1) hz, View.ld_unit_zero (S := S2000x64) hz, View.ld_unit_zero (S := S64x2) hz]
  obtain ⟨e0, e1, e2, e3, e4, e5, e6, e7⟩ := idx_facts t
  have hN : cfg2.N = 50 := N_2
  have ht : t.val < 50 := hN ▸ t.isLt
  funext j
  obtain ⟨p, e, rfl⟩ : ∃ (p : Fin 2000) (e : Fin 2), j = ix2 p e := ⟨j 0, j 1, eq_ix2 (n0 := 2000) (n1 := 2) j⟩
  have hp : t.val * 2000 + p.val < 100000 := by have := p.isLt; omega
  show k2_pay1 (iblk2 V c 1 t) (iblk2 V c 0 t) (iblk2 V c 2 t) (ix2 p e)
    = Cert.Spec.scaleProject (V c main_v38) (V c main_v21) (V c main_arg3) (((cfg2.win 3).blk t).view.emb (ix2 p e))
  have hi : ((cfg2.win 3).blk t).view.emb (ix2 p e) = ix2 (⟨t.val * 2000 + p.val, hp⟩ : Fin 100000) e := by
    funext a; apply Fin.ext
    match a with
    | ⟨0, _⟩ => show win2_3.index t (0 : Fin 2) * 2000 + 1 * p.val = t.val * 2000 + p.val; omega
    | ⟨1, _⟩ => show win2_3.index t (1 : Fin 2) * 2 + 1 * e.val = e.val; omega
  rw [hi]
  refine point_eq _ _ _ _ _ _ p e ⟨t.val * 2000 + p.val, hp⟩ (fun k => ?_) ?_ (fun k => ?_)
  · show V c main_v38 (((cfg2.win 0).blk t).view.emb (ix2 p k)) = V c main_v38 (ix2 (⟨t.val * 2000 + p.val, hp⟩ : Fin 100000) k)
    refine congrArg (V c main_v38) (funext fun a => Fin.ext ?_)
    match a with
    | ⟨0, _⟩ => show win2_0.index t (0 : Fin 2) * 2000 + 1 * p.val = t.val * 2000 + p.val; omega
    | ⟨1, _⟩ => show win2_0.index t (1 : Fin 2) * 64 + 1 * k.val = k.val; omega
  · show V c main_v21 (((cfg2.win 1).blk t).view.emb (ix2 p (0 : Fin 1))) = V c main_v21 (ix2 (⟨t.val * 2000 + p.val, hp⟩ : Fin 100000) (0 : Fin 1))
    refine congrArg (V c main_v21) (funext fun a => Fin.ext ?_)
    match a with
    | ⟨0, _⟩ => show win2_1.index t (0 : Fin 2) * 2000 + 1 * p.val = t.val * 2000 + p.val; omega
    | ⟨1, _⟩ => show win2_1.index t (1 : Fin 2) * 1 + 1 * 0 = 0; omega
  · show V c main_arg3 (((cfg2.win 2).blk t).view.emb (ix2 k e)) = V c main_arg3 (ix2 k e)
    refine congrArg (V c main_arg3) (funext fun a => Fin.ext ?_)
    match a with
    | ⟨0, _⟩ => show win2_2.index t (0 : Fin 2) * 64 + 1 * k.val = k.val; omega
    | ⟨1, _⟩ => show win2_2.index t (1 : Fin 2) * 2 + 1 * e.val = e.val; omega

/-- An index of the output array is in point `t`'s block iff each coordinate is in the block's range on its axis. -/
theorem mem_blk (t : Fin cfg2.N) (i : S100000x2.Idx) :
    i ∈ ((cfg2.win 3).blk t).view.set ↔ ∀ a : Fin 2, win2_3.index t a * S2000x2.size a ≤ (i a).val
      ∧ (i a).val < win2_3.index t a * S2000x2.size a + S2000x2.size a := by
  show i ∈ ((View.whole main_v39).slice (win2_3.rect t)).set ↔ _
  rw [View.set_slice_whole, Rect.mem_set_unit]
  exact Iff.rfl

/-- Every index of the output array is written back by some point: row `r` lies in the block of point `r / 2000`. -/
theorem cover (i : S100000x2.Idx) :
    ∃ t : Fin cfg2.N, (cfg2.win 3).flush t = true ∧ i ∈ ((cfg2.win 3).blk t).view.set := by
  have hN : cfg2.N = 50 := N_2
  have hi0 : (i 0).val < 100000 := (i 0).isLt
  have hi1 : (i 1).val < 2 := (i 1).isLt
  obtain ⟨t, ht⟩ : ∃ t : Fin cfg2.N, t.val = (i 0).val / 2000 := ⟨⟨(i 0).val / 2000, by rw [hN]; omega⟩, rfl⟩
  obtain ⟨-, -, -, -, -, -, e6, e7⟩ := idx_facts t
  refine ⟨t, flush2_3 t, ?_⟩
  rw [mem_blk]
  intro a
  match a with
  | ⟨0, _⟩ =>
    show win2_3.index t (0 : Fin 2) * 2000 ≤ (i 0).val ∧ (i 0).val < win2_3.index t (0 : Fin 2) * 2000 + 2000
    omega
  | ⟨1, _⟩ =>
    show win2_3.index t (1 : Fin 2) * 2 ≤ (i 1).val ∧ (i 1).val < win2_3.index t (1 : Fin 2) * 2 + 2
    omega

/-- After the region's fifty row tiles the output array holds the stage's whole-array function of the three input
    arrays as the region found them. -/
theorem final (c : Dev nD) :
    (dat2 V c).arrAt 3 cfg2.N = Cert.Spec.scaleProject (V c main_v38) (V c main_v21) (V c main_arg3) :=
  (dat2 V c).arrAt_eq_of_cover 3 _ (fun t _ => flushed_eq V c t) cover

end Cert.KernelIdeal.Hand2

end
-- ==== Proof.Region3.lean ====
/-
  Region 3: the second layer's normalisation and bias, over all row tiles.
-/
import proofs.«174959_j31851477467287_1_alg».proof.Proof.Gen.KernelIdeal.Frame
import proofs.«174959_j31851477467287_1_alg».proof.Proof.Spec
import proofs.«174959_j31851477467287_1_alg».proof.Proof.LibColumn
import proofs.«174959_j31851477467287_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand3

open Cert.KernelIdeal Cert.KernelIdeal.Gen

variable (V : (c : Dev nD) → (b : Ref sig .tc) → Buf (Elt Ideal) ((c : Thread nD τ).loc b))

/-- The zero offsets of a whole-block access, as the constant function. -/
theorem hz : (![0, 0] : Fin 2 → Nat) = fun _ => 0 := funext fun a => by fin_cases a <;> rfl

/-- The body's stored value at row `p`, lane `e` of a tile: the tile's entry scaled by the row's entry of the column,
    plus the lane's entry of the bias row. The self-casts are the identity, the column broadcast reads the column's
    row and the row broadcast reads the row's lane. -/
theorem pay_apply (v0 : Vec Ideal S2000x1 .f32) (v4 : Vec Ideal S1x2 .f32) (v8 : Vec Ideal S2000x2 .f32)
    (p : Fin 2000) (e : Fin 2) :
    k3_pay1 v0 v4 v8 (ix2 p e) = v8 (ix2 p e) * v0 (ix2 p (0 : Fin 1)) + v4 (ix2 (0 : Fin 1) e) := by
  unfold k3_pay1
  simp only [shapeCast_self]
  rw [addf_apply, mulf_apply, Cert.LibColumn.broadcastTo_a1_ab_apply, broadcastTo_1b_ab_apply]

/-- The windows' block indices at grid point `t`: the tile, the column and the output move down by one block of rows
    per point; the bias row stays at its one block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Point `t`'s block of the first input is rows `2000 t … 2000 t + 1999` of its array. -/
theorem blk0_apply (c : Dev nD) (t : Fin cfg3.N) (y : S2000x2.Idx) (k : S100000x2.Idx)
    (hk0 : (k 0).val = 2000 * t.val + (y 0).val) (hk1 : (k 1).val = (y 1).val) :
    (iblk3 V c 0 t : Vec Ideal S2000x2 .f32) y = (V c main_v49 : S100000x2.Idx → Elt Ideal .f32) k := by
  obtain ⟨e0, e1, -⟩ := idx_facts t
  unfold iblk3
  rw [View.read_apply]
  show V c main_v49 _ = V c main_v49 _
  refine congrArg _ ?_
  funext a
  apply Fin.ext
  match a with
  | ⟨0, _⟩ => show win3_0.index t 0 * 2000 + 1 * (y 0).val = (k 0).val; rw [e0, hk0]; omega
  | ⟨1, _⟩ => show win3_0.index t 1 * 2 + 1 * (y 1).val = (k 1).val; rw [e1, hk1]; omega

/-- Point `t`'s block of the column is the same rows of the column's array. -/
theorem blk1_apply (c : Dev nD) (t : Fin cfg3.N) (y : S2000x1.Idx) (k : S100000x1.Idx)
    (hk0 : (k 0).val = 2000 * t.val + (y 0).val) (hk1 : (k 1).val = (y 1).val) :
    (iblk3 V c 1 t : Vec Ideal S2000x1 .f32) y = (V c main_v24 : S100000x1.Idx → Elt Ideal .f32) k := by
  obtain ⟨-, -, e0, e1, -⟩ := idx_facts t
  unfold iblk3
  rw [View.read_apply]
  show V c main_v24 _ = V c main_v24 _
  refine congrArg _ ?_
  funext a
  apply Fin.ext
  match a with
  | ⟨0, _⟩ => show win3_1.index t 0 * 2000 + 1 * (y 0).val = (k 0).val; rw [e0, hk0]; omega
  | ⟨1, _⟩ => show win3_1.index t 1 * 1 + 1 * (y 1).val = (k 1).val; rw [e1, hk1]; omega

/-- Every point's block of the bias row is the whole row. -/
theorem blk2_apply (c : Dev nD) (t : Fin cfg3.N) (y : S1x2.Idx) :
    (iblk3 V c 2 t : Vec Ideal S1x2 .f32) y = (V c main_v26 : S1x2.Idx → Elt Ideal .f32) y := by
  obtain ⟨-, -, -, -, e0, e1, -⟩ := idx_facts t
  unfold iblk3
  rw [View.read_apply]
  show V c main_v26 _ = V c main_v26 _
  refine congrArg _ ?_
  funext a
  apply Fin.ext
  match a with
  | ⟨0, _⟩ => show win3_2.index t 0 * 1 + 1 * (y 0).val = (y 0).val; rw [e0]; omega
  | ⟨1, _⟩ => show win3_2.index t 1 * 2 + 1 * (y 1).val = (y 1).val; rw [e1]; omega

/-- The stage's whole-array function at row `r`, lane `e`, with the index's coordinates read off. -/
theorem spec_apply (a : FVec Ideal S100000x2 .f32) (n : FVec Ideal S100000x1 .f32) (b : FVec Ideal S1x2 .f32)
    (r : Fin 100000) (e : Fin 2) :
    Cert.Spec.normBias a n b (ix2 r e) = a (ix2 r e) * n (ix2 r (0 : Fin 1)) + b (ix2 (0 : Fin 1) e) := rfl

/-- WHAT POINT `t` WRITES BACK is block `t` of the stage's whole-array function of the three input arrays: entry
    `(p, e)` of the block is the body's value at `(p, e)`, whose three reads sit in the arrays at row `2000 t + p`. -/
theorem flushed_eq (c : Dev nD) (t : Fin cfg3.N) :
    (dat3 V c).flushed 3 t
      = ((cfg3.win 3).blk t).view.read (Elt Ideal) (Cert.Spec.normBias (V c main_v49) (V c main_v24) (V c main_v26)) := by
  show (cfg3.win 3).cut (grid3.coords t) ((dat3 V c).after 3 t) = _
  rw [after3_3]
  unfold out3_3
  rw [View.canon_unit_zero hz]
  simp only [View.ld_unit_zero (S := S2000x1) hz, View.ld_unit_zero (S := S1x2) hz, View.ld_unit_zero (S := S2000x2) hz]
  obtain ⟨-, -, -, -, -, -, e0, e1⟩ := idx_facts t
  have hN : cfg3.N = 50 := N_3
  have ht : t.val < 50 := hN ▸ t.isLt
  funext j
  obtain ⟨p, e, rfl⟩ : ∃ (p : Fin 2000) (e : Fin 2), j = ix2 p e := ⟨j 0, j 1, eq_ix2 (n0 := 2000) (n1 := 2) j⟩
  have hi : ((cfg3.win 3).blk t).view.emb (ix2 p e) = (ix2 (⟨2000 * t.val + p.val, by omega⟩ : Fin 100000) e : S100000x2.Idx) := by
    funext a
    apply Fin.ext
    match a with
    | ⟨0, _⟩ => show win3_3.index t 0 * 2000 + 1 * p.val = 2000 * t.val + p.val; rw [e0]; omega
    | ⟨1, _⟩ => show win3_3.index t 1 * 2 + 1 * e.val = e.val; rw [e1]; omega
  rw [View.read_apply, hi]
  show k3_pay1 (iblk3 V c 1 t) (iblk3 V c 2 t) (iblk3 V c 0 t) (ix2 p e) = _
  refine ((pay_apply _ _ _ p e).trans ?_).trans (spec_apply _ _ _ ⟨2000 * t.val + p.val, by omega⟩ e).symm
  rw [blk0_apply V c t (ix2 p e) (ix2 (⟨2000 * t.val + p.val, by omega⟩ : Fin 100000) e) rfl rfl,
    blk1_apply V c t (ix2 p (0 : Fin 1)) (ix2 (⟨2000 * t.val + p.val, by omega⟩ : Fin 100000) (0 : Fin 1)) rfl rfl,
    blk2_apply V c t (ix2 (0 : Fin 1) e)]

/-- An index of the output array is in point `t`'s block iff each coordinate is in the block's range on its axis. -/
theorem mem_blk (t : Fin cfg3.N) (i : S100000x2.Idx) :
    i ∈ ((cfg3.win 3).blk t).view.set
      ↔ ∀ a : Fin 2, win3_3.index t a * S2000x2.size a ≤ (i a).val ∧ (i a).val < win3_3.index t a * S2000x2.size a + S2000x2.size a := by
  show i ∈ ((View.whole main_v50).slice (win3_3.rect t)).set ↔ _
  rw [View.set_slice_whole, Rect.mem_set_unit]
  exact Iff.rfl

/-- Row `r` of the output array is in the block of point `r / 2000`, and every point writes its block back. -/
theorem cover (i : S100000x2.Idx) :
    ∃ t : Fin cfg3.N, (cfg3.win 3).flush t = true ∧ i ∈ ((cfg3.win 3).blk t).view.set := by
  have hN : cfg3.N = 50 := N_3
  have hi0 : (i 0).val < 100000 := (i 0).isLt
  have hi1 : (i 1).val < 2 := (i 1).isLt
  let t : Fin cfg3.N := ⟨(i 0).val / 2000, by rw [hN]; omega⟩
  obtain ⟨-, -, -, -, -, -, e0, e1⟩ := idx_facts t
  have htv : t.val = (i 0).val / 2000 := rfl
  refine ⟨t, flush3_3 t, ?_⟩
  rw [mem_blk]
  intro a
  match a with
  | ⟨0, _⟩ => show win3_3.index t 0 * 2000 ≤ (i 0).val ∧ (i 0).val < win3_3.index t 0 * 2000 + 2000; rw [e0, htv]; omega
  | ⟨1, _⟩ => show win3_3.index t 1 * 2 ≤ (i 1).val ∧ (i 1).val < win3_3.index t 1 * 2 + 2; rw [e1]; omega

/-- After the region's fifty row tiles the output array holds the stage's whole-array function of the three input
    arrays as the region found them. -/
theorem final (c : Dev nD) :
    (dat3 V c).arrAt 3 cfg3.N = Cert.Spec.normBias (V c main_v49) (V c main_v24) (V c main_v26) :=
  (dat3 V c).arrAt_eq_of_cover 3 _ (fun t _ => flushed_eq V c t) cover

end Cert.KernelIdeal.Hand3

end
-- ==== Proof.Bridge.lean ====
/-
  The idealized kernel's result array is the reference's function of the arguments.

  The program is a chain: the host prepares the degree norms; then, per layer, a projection region, an edge aggregation
  on the host and a normalisation region. Each link's result is the reference's stage of the same name as a whole array:
  the host links because they are the reference's own operations on the same operands, the regions because a region's
  output array, tile by tile, is the whole-array stage of its input arrays, which the reference computes in one piece.
  Between a link and the next one that reads an array, nothing writes it.
-/
import proofs.«174959_j31851477467287_1_alg».proof.Proof.Gen.KernelIdeal.Frame
import proofs.«174959_j31851477467287_1_alg».proof.Proof.Gen.ReferenceIdeal.Read
import proofs.«174959_j31851477467287_1_alg».proof.Proof.Spec
import proofs.«174959_j31851477467287_1_alg».proof.Proof.Walk
import proofs.«174959_j31851477467287_1_alg».proof.Proof.Entry
import proofs.«174959_j31851477467287_1_alg».proof.Proof.RefStages
import proofs.«174959_j31851477467287_1_alg».proof.Proof.Region0
import proofs.«174959_j31851477467287_1_alg».proof.Proof.Region1
import proofs.«174959_j31851477467287_1_alg».proof.Proof.Region2
import proofs.«174959_j31851477467287_1_alg».proof.Proof.Region3

set_option maxRecDepth 16384

noncomputable section

namespace Cert.Bridge

open Cert.KernelIdeal Cert.KernelIdeal.Gen Cert.KernelIdeal.HandWalk Cert.HostStretches
open Idealize.ShloMosaic Idealize.ShloMosaic.TcCoe Idealize.SL.Sem
open Cert.ReferenceIdeal.Read (val_main_v9 val_main_v18 val_main_v23 val_main_v26 val_main_v36 val_main_v37 val_main_v40 val_main_v43
  val_main_v47 val_main_v57 val_main_v61 val_main_v63)

variable (m : (ℓ : Loc nD τ sig) → Buf (Elt Ideal) ℓ) (ρ : Dev nD → PrngReg) (c : Dev nD)

/-! ## The argument arrays, as the program finds them at launch -/

abbrev a0 : (⟨S100000x128, .f32⟩ : BufTy).Contents (Elt Ideal) := W0 m ρ c (Proc.devRef .tc main_arg0)
abbrev a1 : (⟨S128x64, .f32⟩ : BufTy).Contents (Elt Ideal) := W0 m ρ c (Proc.devRef .tc main_arg1)
abbrev a2 : (⟨S64, .f32⟩ : BufTy).Contents (Elt Ideal) := W0 m ρ c (Proc.devRef .tc main_arg2)
abbrev a3 : (⟨S64x2, .f32⟩ : BufTy).Contents (Elt Ideal) := W0 m ρ c (Proc.devRef .tc main_arg3)
abbrev a4 : (⟨S2, .f32⟩ : BufTy).Contents (Elt Ideal) := W0 m ρ c (Proc.devRef .tc main_arg4)
abbrev a5 : (⟨S1600000, .i32⟩ : BufTy).Contents (Elt Ideal) := W0 m ρ c (Proc.devRef .tc main_arg5)
abbrev a6 : (⟨S1600000, .i32⟩ : BufTy).Contents (Elt Ideal) := W0 m ρ c (Proc.devRef .tc main_arg6)

/-! ## Region 0's entry: the norm columns and bias rows the host prepared -/

/-- The clamped out-degrees, when the norms are computed. -/
theorem deg_src : W4 m ρ c (Proc.devRef .tc main_v17) = val_main_v9 (F := Ideal) (a5 m ρ c) :=
  (keep_main_v17_2_4 m ρ c).trans (clamp_src (W1 m ρ c) _ (one_src (W0 m ρ c)) (counts_src (W0 m ρ c)))

/-- The clamped in-degrees. -/
theorem deg_dst : W4 m ρ c (Proc.devRef .tc main_v18) = val_main_v18 (F := Ideal) (a6 m ρ c) :=
  clamp_dst (W3 m ρ c) _ (one_dst (W2 m ρ c)) ((keep_main_v16_1_3 m ρ c).trans (counts_dst (W0 m ρ c)))

theorem entry_v21 : W5 m ρ c (Proc.devRef .tc main_v21) = val_main_v23 (F := Ideal) (a5 m ρ c) :=
  col_src (W4 m ρ c) _ (deg_src m ρ c)

theorem entry_v24 : W5 m ρ c (Proc.devRef .tc main_v24) = val_main_v37 (F := Ideal) (a6 m ρ c) :=
  col_dst (W4 m ρ c) _ (deg_dst m ρ c)

theorem entry_v25 : W5 m ρ c (Proc.devRef .tc main_v25) = val_main_v40 (F := Ideal) (a2 m ρ c) :=
  (row_b1 (W4 m ρ c)).trans (congrArg (val_main_v40 (F := Ideal)) (keep_main_arg2_0_4 m ρ c))

theorem entry_v26 : W5 m ρ c (Proc.devRef .tc main_v26) = val_main_v61 (F := Ideal) (a4 m ρ c) :=
  (row_b2 (W4 m ρ c)).trans (congrArg (val_main_v61 (F := Ideal)) (keep_main_arg4_0_4 m ρ c))

/-! ## Equal operands give equal stages -/

theorem scaleProject_congr {M K N : ℕ} {x x' : FVec Ideal ⟨2, ![M, K]⟩ .f32} {n n' : FVec Ideal ⟨2, ![M, 1]⟩ .f32}
    {w w' : FVec Ideal ⟨2, ![K, N]⟩ .f32} (hx : x = x') (hn : n = n') (hw : w = w') :
    Cert.Spec.scaleProject x n w = Cert.Spec.scaleProject x' n' w' := by subst hx hn hw; rfl
theorem normBias_congr {M N : ℕ} {a a' : FVec Ideal ⟨2, ![M, N]⟩ .f32} {n n' : FVec Ideal ⟨2, ![M, 1]⟩ .f32}
    {b b' : FVec Ideal ⟨2, ![1, N]⟩ .f32} (ha : a = a') (hn : n = n') (hb : b = b') :
    Cert.Spec.normBias a n b = Cert.Spec.normBias a' n' b' := by subst ha hn hb; rfl
theorem normBiasRelu_congr {M N : ℕ} {a a' : FVec Ideal ⟨2, ![M, N]⟩ .f32} {n n' : FVec Ideal ⟨2, ![M, 1]⟩ .f32}
    {b b' : FVec Ideal ⟨2, ![1, N]⟩ .f32} (ha : a = a') (hn : n = n') (hb : b = b') :
    Cert.Spec.normBiasRelu a n b = Cert.Spec.normBiasRelu a' n' b' := by subst ha hn hb; rfl

/-! ## The chain, boundary by boundary -/

/-- After region 0: the first layer's projection. -/
theorem at_v27 : W6 m ρ c (Proc.devRef .tc main_v27) = val_main_v26 (F := Ideal) (a0 m ρ c) (a1 m ρ c) (a5 m ρ c) :=
  (W6_arr m ρ c 3).trans <| (Cert.KernelIdeal.Hand0.final (V5 m ρ) c).trans <|
    (scaleProject_congr (keep_main_arg0_0_5 m ρ c) (entry_v21 m ρ c) (keep_main_arg1_0_5 m ρ c)).trans
      (Cert.ReferenceIdeal.HandStages.stage_v26 _ _ _).symm

/-- After the first aggregation: rows gathered by source and summed by destination. -/
theorem at_v37 : W7 m ρ c (Proc.devRef .tc main_v37)
    = val_main_v36 (F := Ideal) (a0 m ρ c) (a1 m ρ c) (a5 m ρ c) (a6 m ρ c) :=
  agg64 (W6 m ρ c) _ _ _ _ (at_v27 m ρ c) (keep_main_arg5_0_6 m ρ c) (keep_main_arg6_0_6 m ρ c)

/-- After region 1: the hidden layer. -/
theorem at_v38 : W8 m ρ c (Proc.devRef .tc main_v38)
    = val_main_v43 (F := Ideal) (a0 m ρ c) (a1 m ρ c) (a2 m ρ c) (a5 m ρ c) (a6 m ρ c) :=
  (W8_arr m ρ c 3).trans <| (Cert.KernelIdeal.Hand1.final (V7 m ρ) c).trans <|
    (normBiasRelu_congr (at_v37 m ρ c) ((keep_main_v24_5_7 m ρ c).trans (entry_v24 m ρ c))
      ((keep_main_v25_5_7 m ρ c).trans (entry_v25 m ρ c))).trans
      (Cert.ReferenceIdeal.HandStages.stage_v43 _ _ _ _ _).symm

/-- After region 2: the second layer's projection. -/
theorem at_v39 : W9 m ρ c (Proc.devRef .tc main_v39)
    = val_main_v47 (F := Ideal) (a0 m ρ c) (a1 m ρ c) (a2 m ρ c) (a3 m ρ c) (a5 m ρ c) (a6 m ρ c) :=
  (W9_arr m ρ c 3).trans <| (Cert.KernelIdeal.Hand2.final (V8 m ρ) c).trans <|
    (scaleProject_congr (at_v38 m ρ c) ((keep_main_v21_5_8 m ρ c).trans (entry_v21 m ρ c))
      (keep_main_arg3_0_8 m ρ c)).trans
      (Cert.ReferenceIdeal.HandStages.stage_v47 _ _ _ _ _ _).symm

/-- After the second aggregation. -/
theorem at_v49 : W10 m ρ c (Proc.devRef .tc main_v49)
    = val_main_v57 (F := Ideal) (a0 m ρ c) (a1 m ρ c) (a2 m ρ c) (a3 m ρ c) (a5 m ρ c) (a6 m ρ c) :=
  agg2 (W9 m ρ c) _ _ _ _ _ _ (at_v39 m ρ c) ((keep_main_arg5_6_9 m ρ c).trans (keep_main_arg5_0_6 m ρ c))
    ((keep_main_arg6_6_9 m ρ c).trans (keep_main_arg6_0_6 m ρ c))

/-- After region 3: the result. -/
theorem at_v50 : W11 m ρ c (Proc.devRef .tc main_v50)
    = val_main_v63 (F := Ideal) (a0 m ρ c) (a1 m ρ c) (a2 m ρ c) (a3 m ρ c) (a4 m ρ c) (a5 m ρ c) (a6 m ρ c) :=
  (W11_arr m ρ c 3).trans <| (Cert.KernelIdeal.Hand3.final (V10 m ρ) c).trans <|
    (normBias_congr (at_v49 m ρ c)
      ((keep_main_v24_7_10 m ρ c).trans ((keep_main_v24_5_7 m ρ c).trans (entry_v24 m ρ c)))
      ((keep_main_v26_5_10 m ρ c).trans (entry_v26 m ρ c))).trans
      (Cert.ReferenceIdeal.HandStages.stage_v63 _ _ _ _ _ _ _).symm

/-- The result array after the run is the reference's function of the launch memory's argument arrays. -/
theorem result_eq : W11 m ρ c (Proc.devRef .tc main_v50)
    = val_main_v63 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) :=
  at_v50 m ρ c

end Cert.Bridge

end
-- ==== Proof.lean ====
/-
  A two-layer graph convolution with symmetric degree normalisation: per layer, every node's feature row is scaled by
  its out-degree norm and projected by the layer's weight matrix, the projected rows are gathered along the edges by
  source node and summed by destination node, and every aggregated row is scaled by the node's in-degree norm and
  shifted by the bias (with the maximum with zero after the first layer).

  The kernel computes the two dense stages of each layer in row tiles of 2000 nodes (four regions of fifty tiles) and
  leaves the degree counts, the norms and the edge aggregation to the host; the reference computes everything on the
  host over whole arrays. Over the extended reals the two programs are one function of the arguments, operation by
  operation and in the same order of operands: the host stretches are the same operations on the same operands, a tile of
  a row-scaled matrix product is the rows of the whole product (the sum over the contracted axis, entry by entry), a
  change of float format is the identity, and the norm column and the bias row are a reshape in one program and a
  broadcast in the other of the same vector. No algebraic law that fails at the infinities is used, so the precondition
  is not opened.

  Proof/KRun.lean names the kernel's result after its run; Proof/Region0.lean … Region3.lean give each region's output
  array as the whole-array stage of its input arrays (Proof/Spec.lean); Proof/RefStages.lean gives the reference's
  stages in the same form; Proof/Entry.lean reads the host stretches (the degree norms before the first region, the edge aggregation
  between regions) as the reference's stages; Proof/Walk.lean says which arrays each part of the program leaves alone;
  Proof/Bridge.lean chains them from the launch to the result.
-/
import proofs.«174959_j31851477467287_1_alg».proof.Defs
import proofs.«174959_j31851477467287_1_alg».proof.Proof.Gen.Kernel
import proofs.«174959_j31851477467287_1_alg».proof.Proof.Gen.Kernel.Skeleton
import proofs.«174959_j31851477467287_1_alg».proof.Proof.Gen.Kernel.Launch
import proofs.«174959_j31851477467287_1_alg».proof.Proof.Gen.Kernel.Points
import proofs.«174959_j31851477467287_1_alg».proof.Proof.Gen.Kernel.Frame
import proofs.«174959_j31851477467287_1_alg».proof.Proof.Gen.KernelIdeal
import proofs.«174959_j31851477467287_1_alg».proof.Proof.Gen.KernelIdeal.Skeleton
import proofs.«174959_j31851477467287_1_alg».proof.Proof.Gen.KernelIdeal.Launch
import proofs.«174959_j31851477467287_1_alg».proof.Proof.Gen.KernelIdeal.Points
import proofs.«174959_j31851477467287_1_alg».proof.Proof.Gen.KernelIdeal.Frame
import proofs.«174959_j31851477467287_1_alg».proof.Proof.Gen.ReferenceIdeal
import proofs.«174959_j31851477467287_1_alg».proof.Proof.Gen.Pre_finite_inputs
import proofs.«174959_j31851477467287_1_alg».proof.Proof.Gen.ReferenceIdeal.Run
import proofs.«174959_j31851477467287_1_alg».proof.Proof.Gen.ReferenceIdeal.Read
import proofs.«174959_j31851477467287_1_alg».proof.Proof.KRun
import proofs.«174959_j31851477467287_1_alg».proof.Proof.Bridge
import Idealize.ShloMosaic.Adequacy
import Idealize.ShloMosaic.Init

noncomputable section

namespace Cert.Proof

open Idealize.ShloMosaic Idealize.SL.Sem

/-- The kernel as printed runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at the reference's function of
    the arguments: the kernel by the chain through its four regions, the reference by its run. -/
theorem algebraic : Cert.algebraic_KernelIdeal_ReferenceIdeal := by
  intro m ρ m' ρ' _ hagree
  refine ⟨fun c => Cert.KernelIdeal.Gen.W11 m ρ c (Proc.devRef .tc Cert.KernelIdeal.main_v50),
    Cert.KernelIdeal.HandRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v63_eq, (hagree c).1, (hagree c).2.1, (hagree c).2.2.1, (hagree c).2.2.2.1,
    (hagree c).2.2.2.2.1, (hagree c).2.2.2.2.2.1, (hagree c).2.2.2.2.2.2]
  exact (Cert.Bridge.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
